-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4 : Shape := ⟨2, ![4096, 4]⟩
abbrev S40x1024x1024 : Shape := ⟨3, ![40, 1024, 1024]⟩
abbrev S32x1024x512 : Shape := ⟨3, ![32, 1024, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S40x1024x1024 : S_.BroadcastsInDim S40x1024x1024 (![] : Fin 0 → Fin S40x1024x1024.rank)
  reducesTo_S40x1024x1024_S_d0_1_2 : S40x1024x1024.ReducesTo [0, 1, 2] S_
  bcast_S_S32x1024x512 : S_.BroadcastsInDim S32x1024x512 (![] : Fin 0 → Fin S32x1024x512.rank)
  reducesTo_S32x1024x512_S_d0_1_2 : S32x1024x512.ReducesTo [0, 1, 2] S_

variable [Facts]

def fn_part1 {F : FTy → Type} [FloatOps F] (main_v13 : IVec S_ 1) (main_v16 : IVec S32x1024x512 1) : IVec S_ 1 :=
  let main_c_5 : IVec S_ 1 := constantI S_ 1 1#1
  let main_v17 : IVec S_ 1 := (fun x v => Host.reduce IntOp.andi x v reducesTo_S32x1024x512_S_d0_1_2 h_S_) main_v16 main_c_5
  let main_v18 : IVec S_ 1 := andi main_v13 main_v17
  main_v18

def fn {F : FTy → Type} [FloatOps F] (main_arg0 : FVec F S4096x1024 .f32) (main_arg1 : IVec S4096x4 32) (main_arg2 : FVec F S4096x4 .f32) (main_arg3 : FVec F S40x1024x1024 .f32) (main_arg4 : FVec F S32x1024x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4 .f32 := Host.absf main_arg2
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S40x1024x1024 .f32 := Host.absf main_arg3
  let main_cst_2 : FVec F S_ .f32 := constant S_ .f32 0x7F800000#32
  let main_v10 : FVec F S40x1024x1024 .f32 := broadcastInDim S40x1024x1024 ![] bcast_S_S40x1024x1024 main_cst_2
  let main_v11 : IVec S40x1024x1024 1 := cmpf .olt main_v9 main_v10
  let main_c_3 : IVec S_ 1 := constantI S_ 1 1#1
  let main_v12 : IVec S_ 1 := (fun x v => Host.reduce IntOp.andi x v reducesTo_S40x1024x1024_S_d0_1_2 h_S_) main_v11 main_c_3
  let main_v13 : IVec S_ 1 := andi main_v8 main_v12
  let main_v14 : FVec F S32x1024x512 .f32 := Host.absf main_arg4
  let main_cst_4 : FVec F S_ .f32 := constant S_ .f32 0x7F800000#32
  let main_v15 : FVec F S32x1024x512 .f32 := broadcastInDim S32x1024x512 ![] bcast_S_S32x1024x512 main_cst_4
  let main_v16 : IVec S32x1024x512 1 := cmpf .olt main_v14 main_v15
  fn_part1 (F := F) main_v13 main_v16
-- ==== Kernel.lean ====
abbrev S4096x1024 : Shape := ⟨2, ![4096, 1024]⟩
abbrev S4096x4 : Shape := ⟨2, ![4096, 4]⟩
abbrev S40x1024x1024 : Shape := ⟨3, ![40, 1024, 1024]⟩
abbrev S32x1024x512 : Shape := ⟨3, ![32, 1024, 512]⟩
abbrev S16384 : Shape := ⟨1, ![16384]⟩
abbrev S4096 : Shape := ⟨1, ![4096]⟩
abbrev S_ : Shape := ⟨0, ![]⟩
abbrev S4096x1 : Shape := ⟨2, ![4096, 1]⟩
abbrev S16384x1 : Shape := ⟨2, ![16384, 1]⟩
abbrev S40 : Shape := ⟨1, ![40]⟩
abbrev S16384x1024 : Shape := ⟨2, ![16384, 1024]⟩
abbrev S32x768x1024 : Shape := ⟨3, ![32, 768, 1024]⟩
abbrev S16384x2 : Shape := ⟨2, ![16384, 2]⟩
abbrev S32x1024x1024 : Shape := ⟨3, ![32, 1024, 1024]⟩
abbrev S1x768x1024 : Shape := ⟨3, ![1, 768, 1024]⟩
abbrev S1x1024x1024 : Shape := ⟨3, ![1, 1024, 1024]⟩
abbrev S1x1024x512 : Shape := ⟨3, ![1, 1024, 512]⟩
abbrev S768x1024 : Shape := ⟨2, ![768, 1024]⟩
abbrev S1024x1024 : Shape := ⟨2, ![1024, 1024]⟩
abbrev S1024x512 : Shape := ⟨2, ![1024, 512]⟩
abbrev S768x512 : Shape := ⟨2, ![768, 512]⟩

abbrev nBuf : Space → Nat
  | .hbm => 173
  | .vmem => 8
  | .smem => 0
  | _ => 0

abbrev hbmTy0_0 (i : Nat) : BufTy := match i % 128 with
  | 0 => ⟨S4096x1024, .f32⟩
  | 1 => ⟨S4096x4, .i32⟩
  | 2 => ⟨S4096x4, .f32⟩
  | 3 => ⟨S40x1024x1024, .f32⟩
  | 4 => ⟨S32x1024x512, .f32⟩
  | 5 => ⟨S16384, .i32⟩
  | 6 => ⟨S4096, .i32⟩
  | 7 => ⟨S4096x4, .i32⟩
  | 8 => ⟨S16384, .i32⟩
  | 9 => ⟨S16384, .f32⟩
  | 10 => ⟨S_, .i32⟩
  | 11 => ⟨S4096x4, .i32⟩
  | 12 => ⟨S4096x4, .i1⟩
  | 13 => ⟨S_, .f32⟩
  | 14 => ⟨S_, .f32⟩
  | 15 => ⟨S4096x4, .f32⟩
  | 16 => ⟨S4096x4, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S16384, .f32⟩
  | 52 => ⟨S_, .i32⟩
  | 53 => ⟨S40, .i32⟩
  | 54 => ⟨S_, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S_, .i32⟩
  | 67 => ⟨S16384, .i32⟩
  | 68 => ⟨S40, .i32⟩
  | 69 => ⟨S_, .i32⟩
  | 70 => ⟨S_, .i32⟩
  | 71 => ⟨S40, .i32⟩
  | 72 => ⟨S40, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S16384, .i32⟩
  | 83 => ⟨S16384, .i32⟩
  | 84 => ⟨S_, .i32⟩
  | 85 => ⟨S16384, .i32⟩
  | 86 => ⟨S16384, .i1⟩
  | 87 => ⟨S_, .i32⟩
  | 88 => ⟨S16384, .i32⟩
  | 89 => ⟨S16384, .i1⟩
  | 90 => ⟨S16384, .i1⟩
  | 91 => ⟨S_, .i32⟩
  | 92 => ⟨S_, .i32⟩
  | 93 => ⟨S16384, .i32⟩
  | 94 => ⟨S16384, .i32⟩
  | 95 => ⟨S_, .i32⟩
  | 96 => ⟨S_, .i32⟩
  | 97 => ⟨S16384, .i32⟩
  | 98 => ⟨S16384, .i32⟩
  | 99 => ⟨S16384x1, .i1⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x1024, .f32⟩
  | 109 => ⟨S_, .f32⟩
  | 110 => ⟨S_, .f32⟩
  | 111 => ⟨S16384x1024, .i1⟩
  | 112 => ⟨S16384x1024, .f32⟩
  | 113 => ⟨S16384x1024, .f32⟩
  | 114 => ⟨S_, .f32⟩
  | 115 => ⟨S32x768x1024, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S4096x1024, .f32⟩

abbrev hbmTy0_1 (i : Nat) : BufTy := match i % 128 with
  | 0 => ⟨S16384, .i32⟩
  | 1 => ⟨S16384, .i32⟩
  | 2 => ⟨S16384x1, .i32⟩
  | 3 => ⟨S16384x1, .i32⟩
  | 4 => ⟨S16384x2, .i32⟩
  | 5 => ⟨S32x768x1024, .f32⟩
  | 6 => ⟨S32x768x1024, .bf16⟩
  | 7 => ⟨S32x1024x1024, .f32⟩
  | 8 => ⟨S32x1024x1024, .bf16⟩
  | 9 => ⟨S32x1024x512, .bf16⟩
  | 10 => ⟨S32x768x1024, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x1, .i32⟩
  | 27 => ⟨S16384x2, .i32⟩
  | 28 => ⟨S16384x1024, .f32⟩
  | 29 => ⟨S_, .f32⟩
  | 30 => ⟨S_, .f32⟩
  | 31 => ⟨S16384, .f32⟩
  | 32 => ⟨S16384, .f32⟩
  | 33 => ⟨S16384x1, .f32⟩
  | 34 => ⟨S16384x1024, .f32⟩
  | 35 => ⟨S16384x1024, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x768x1024, .bf16⟩
  | .local _ .vmem, ⟨1, _⟩ => ⟨S1x768x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x768x1024, .f32⟩
  | .local _ .vmem, ⟨7, _⟩ => ⟨S1x768x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1_0 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_call3_call0_c : Ref sig .tc := ⟨.hbm, 69, rfl⟩
abbrev main_call3_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_call4_v0 : Ref sig .tc := ⟨.hbm, 92, rfl⟩
abbrev main_call4_v1 : Ref sig .tc := ⟨.hbm, 93, rfl⟩
abbrev main_v60 : Ref sig .tc := ⟨.hbm, 94, rfl⟩
abbrev main_c_17 : Ref sig .tc := ⟨.hbm, 95, rfl⟩
abbrev main_call5_v0 : Ref sig .tc := ⟨.hbm, 96, rfl⟩
abbrev main_call5_v1 : Ref sig .tc := ⟨.hbm, 97, rfl⟩
abbrev main_v61 : Ref sig .tc := ⟨.hbm, 98, rfl⟩
abbrev main_v62 : Ref sig .tc := ⟨.hbm, 99, rfl⟩
abbrev main_c_18 : Ref sig .tc := ⟨.hbm, 100, rfl⟩
abbrev main_v63 : Ref sig .tc := ⟨.hbm, 101, rfl⟩
abbrev main_v64 : Ref sig .tc := ⟨.hbm, 102, rfl⟩
abbrev main_c_19 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v70 : Ref sig .tc := ⟨.hbm, 113, rfl⟩
abbrev main_cst_21 : Ref sig .tc := ⟨.hbm, 114, rfl⟩
abbrev main_v71 : Ref sig .tc := ⟨.hbm, 115, rfl⟩
abbrev main_c_22 : Ref sig .tc := ⟨.hbm, 116, rfl⟩
abbrev main_v72 : Ref sig .tc := ⟨.hbm, 117, rfl⟩
abbrev main_v73 : Ref sig .tc := ⟨.hbm, 118, rfl⟩
abbrev main_c_23 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_24 : Ref sig .tc := ⟨.hbm, 123, rfl⟩
abbrev main_v77 : Ref sig .tc := ⟨.hbm, 124, rfl⟩
abbrev main_v78 : Ref sig .tc := ⟨.hbm, 125, rfl⟩
abbrev main_c_25 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_26 : Ref sig .tc := ⟨.hbm, 139, rfl⟩
abbrev main_v91 : Ref sig .tc := ⟨.hbm, 140, rfl⟩
abbrev main_v92 : Ref sig .tc := ⟨.hbm, 141, rfl⟩
abbrev main_c_27 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_28 : Ref sig .tc := ⟨.hbm, 146, rfl⟩
abbrev main_v96 : Ref sig .tc := ⟨.hbm, 147, rfl⟩
abbrev main_v97 : Ref sig .tc := ⟨.hbm, 148, rfl⟩
abbrev main_c_29 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_30 : Ref sig .tc := ⟨.hbm, 157, rfl⟩
abbrev main_call7_v0 : Ref sig .tc := ⟨.hbm, 158, rfl⟩
abbrev main_call7_v1 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_31 : Ref sig .tc := ⟨.hbm, 164, rfl⟩
abbrev main_v109 : Ref sig .tc := ⟨.hbm, 165, rfl⟩
abbrev main_v110 : Ref sig .tc := ⟨.hbm, 166, rfl⟩
abbrev main_c_32 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4_S16384 : S4096x4.ShapeCasts S16384
  bcast_S4096_S4096x4_0 : S4096.BroadcastsInDim S4096x4 (![0] : Fin 1 → Fin S4096x4.rank)
  bcast_S_S4096x4 : S_.BroadcastsInDim S4096x4 (![] : Fin 0 → Fin S4096x4.rank)
  reducesTo_S4096x4_S4096_d1 : S4096x4.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S40 : S_.BroadcastsInDim S40 (![] : Fin 0 → Fin S40.rank)
  bcast_S_S_ : S_.BroadcastsInDim S_ (![] : Fin 0 → Fin S_.rank)
  reduceWindows_S40_S40_w40s1p39_0 : S40.ReduceWindows (![40] : Fin 1 → Nat) ![1] ![39] ![0] S40
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bcast_S_S32x768x1024 : S_.BroadcastsInDim S32x768x1024 (![] : Fin 0 → Fin S32x768x1024.rank)
  concatenates_S16384x1_S16384x1_S16384x2_d1 : Shape.Concatenates [S16384x1, S16384x1] S16384x2 1
  bitsLt_bf16_f32 : FTy.bits .bf16 < FTy.bits .f32
  slices_S40x1024x1024_S32x1024x1024_0_0_0 : S40x1024x1024.Slices ![0, 0, 0] S32x1024x1024
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  slices_S768x1024_o0_0_S768x512 : S768x1024.Slices ![0, 0] S768x512
  slices_S768x1024_o0_512_S768x512 : S768x1024.Slices ![0, 512] S768x512
  shapeCasts_S768x1024_S1x768x1024 : S768x1024.ShapeCasts S1x768x1024
  gather_S16384_S16384x1_S16384_n_0_n_n_0_1_1_wf : GatherDims.WF S16384 S16384x1 S16384 [] [0] [] [0] [] 1 ![1]
  scatter_S40_S16384x1_S16384_n_0_0_1_wf : ScatterDims.WF S40 S16384x1 S16384 [] [0] [0] 1
  gather_S40_S16384x1_S16384_n_0_n_n_0_1_1_wf : GatherDims.WF S40 S16384x1 S16384 [] [0] [] [0] [] 1 ![1]
  gather_S4096x1024_S16384x1_S16384x1024_1_0_n_n_0_1_11024_wf : GatherDims.WF S4096x1024 S16384x1 S16384x1024 [1] [0] [] [0] [] 1 ![1, 1024]
  scatter_S32x768x1024_S16384x2_S16384x1024_1_01_01_1_wf : ScatterDims.WF S32x768x1024 S16384x2 S16384x1024 [1] [0, 1] [0, 1] 1
  dot_S768x1024_S1024x1024_S768x1024_1_1_0_0_n_n_wf : DotDims.WF S768x1024 S1024x1024 S768x1024 [1] [1] [0] [0] [] []
  dot_S768x512_S1024x512_S768x1024_1_1_0_0_n_n_wf : DotDims.WF S768x512 S1024x512 S768x1024 [1] [1] [0] [0] [] []
  gather_S32x768x1024_S16384x2_S16384x1024_1_01_n_n_01_1_111024_wf : GatherDims.WF S32x768x1024 S16384x2 S16384x1024 [1] [0, 1] [] [0, 1] [] 1 ![1, 1, 1024]
  scatter_S4096x1024_S16384x1_S16384x1024_1_0_0_1_wf : ScatterDims.WF S4096x1024 S16384x1 S16384x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S32x768x1024.size a
  hwx0_0 : ∀ i : grid0.Coords, EltTy.bits .bf16 = 32 ∨ (Rect.block (s := S32x768x1024) S1x768x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .bf16 = 32 ∨ (Rect.block (s := S32x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .bf16 = 32 ∨ (Rect.block (s := S32x1024x512) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x1024.size a ≤ S32x768x1024.size a
  hwx0_3 : ∀ i : grid0.Coords, EltTy.bits .f32 = 32 ∨ (Rect.block (s := S32x768x1024) S1x768x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S40_S16384x1_S16384_n_0_0_1 : ScatterDims S40 S16384x1 S16384 where
  updateWindowDims := []
  insertedWindowDims := [0]
  scatterDimsToOperandDims := [0]
  indexVectorDim := 1
  wf := scatter_S40_S16384x1_S16384_n_0_0_1_wf
def gather_S40_S16384x1_S16384_n_0_n_n_0_1_1 : GatherDims S40 S16384x1 S16384 where
  offsetDims := []
  collapsedSliceDims := [0]
  operandBatchingDims := []
  startIndicesBatchingDims := []
  startIndexMap := [0]
  indexVectorDim := 1
  sliceSizes := ![1]
  wf := gather_S40_S16384x1_S16384_n_0_n_n_0_1_1_wf
def gather_S4096x1024_S16384x1_S16384x1024_1_0_n_n_0_1_11024 : GatherDims S4096x1024 S16384x1 S16384x1024 where
  offsetDims := [1]
  collapsedSliceDims := [0]
  operandBatchingDims := []
  startIndicesBatchingDims := []
  startIndexMap := [0]
  indexVectorDim := 1
  sliceSizes := ![1, 1024]
  wf := gather_S4096x1024_S16384x1_S16384x1024_1_0_n_n_0_1_11024_wf
def scatter_S32x768x1024_S16384x2_S16384x1024_1_01_01_1 : ScatterDims S32x768x1024 S16384x2 S16384x1024 where
  updateWindowDims := [1]
  insertedWindowDims := [0, 1]
  scatterDimsToOperandDims := [0, 1]
  indexVectorDim := 1
  wf := scatter_S32x768x1024_S16384x2_S16384x1024_1_01_01_1_wf
def dot_S768x1024_S1024x1024_S768x1024_1_1_0_0_n_n : DotDims S768x1024 S1024x1024 S768x1024 where
  lhsContracting := [1]
  rhsContracting := [1]
  lhsNonContracting := [0]
  rhsNonContracting := [0]
  lhsBatch := []
  rhsBatch := []
  wf := dot_S768x1024_S1024x1024_S768x1024_1_1_0_0_n_n_wf
def dot_S768x512_S1024x512_S768x1024_1_1_0_0_n_n : DotDims S768x512 S1024x512 S768x1024 where
  lhsContracting := [1]
  rhsContracting := [1]
  lhsNonContracting := [0]
  rhsNonContracting := [0]
  lhsBatch := []
  rhsBatch := []
  wf := dot_S768x512_S1024x512_S768x1024_1_1_0_0_n_n_wf
def gather_S32x768x1024_S16384x2_S16384x1024_1_01_n_n_01_1_111024 : GatherDims S32x768x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S32x768x1024_S16384x2_S16384x1024_1_01_n_n_01_1_111024_wf
def scatter_S4096x1024_S16384x1_S16384x1024_1_0_0_1 : ScatterDims S4096x1024 S16384x1 S16384x1024 where
  updateWindowDims := [1]
  insertedWindowDims := [0]
  scatterDimsToOperandDims := [0]
  indexVectorDim := 1
  wf := scatter_S4096x1024_S16384x1_S16384x1024_1_0_0_1_wf

abbrev win0_0 : Pipeline.Window sig grid0 :=
  Pipeline.Window.ofSpec (Memref.whole main_v86) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v89) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v90) S1x768x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4 : Shape := ⟨2, ![4096, 4]⟩
abbrev S40x1024x1024 : Shape := ⟨3, ![40, 1024, 1024]⟩
abbrev S32x1024x512 : Shape := ⟨3, ![32, 1024, 512]⟩
abbrev S16384 : Shape := ⟨1, ![16384]⟩
abbrev S4096 : Shape := ⟨1, ![4096]⟩
abbrev S_ : Shape := ⟨0, ![]⟩
abbrev S4096x1 : Shape := ⟨2, ![4096, 1]⟩
abbrev S16384x1 : Shape := ⟨2, ![16384, 1]⟩
abbrev S40 : Shape := ⟨1, ![40]⟩
abbrev S16384x1024 : Shape := ⟨2, ![16384, 1024]⟩
abbrev S32x768x1024 : Shape := ⟨3, ![32, 768, 1024]⟩
abbrev S16384x2 : Shape := ⟨2, ![16384, 2]⟩
abbrev S32x1024x1024 : Shape := ⟨3, ![32, 1024, 1024]⟩
abbrev S32x768x512 : Shape := ⟨3, ![32, 768, 512]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x4, .i32⟩
  | 2 => ⟨S4096x4, .f32⟩
  | 3 => ⟨S40x1024x1024, .f32⟩
  | 4 => ⟨S32x1024x512, .f32⟩
  | 5 => ⟨S16384, .i32⟩
  | 6 => ⟨S4096, .i32⟩
  | 7 => ⟨S4096x4, .i32⟩
  | 8 => ⟨S16384, .i32⟩
  | 9 => ⟨S16384, .f32⟩
  | 10 => ⟨S_, .i32⟩
  | 11 => ⟨S4096x4, .i32⟩
  | 12 => ⟨S4096x4, .i1⟩
  | 13 => ⟨S_, .f32⟩
  | 14 => ⟨S_, .f32⟩
  | 15 => ⟨S4096x4, .f32⟩
  | 16 => ⟨S4096x4, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S16384, .f32⟩
  | 52 => ⟨S_, .i32⟩
  | 53 => ⟨S40, .i32⟩
  | 54 => ⟨S_, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S_, .i32⟩
  | 67 => ⟨S16384, .i32⟩
  | 68 => ⟨S40, .i32⟩
  | 69 => ⟨S_, .i32⟩
  | 70 => ⟨S_, .i32⟩
  | 71 => ⟨S40, .i32⟩
  | 72 => ⟨S40, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S16384, .i32⟩
  | 83 => ⟨S16384, .i32⟩
  | 84 => ⟨S_, .i32⟩
  | 85 => ⟨S16384, .i32⟩
  | 86 => ⟨S16384, .i1⟩
  | 87 => ⟨S_, .i32⟩
  | 88 => ⟨S16384, .i32⟩
  | 89 => ⟨S16384, .i1⟩
  | 90 => ⟨S16384, .i1⟩
  | 91 => ⟨S_, .i32⟩
  | 92 => ⟨S_, .i32⟩
  | 93 => ⟨S16384, .i32⟩
  | 94 => ⟨S16384, .i32⟩
  | 95 => ⟨S_, .i32⟩
  | 96 => ⟨S_, .i32⟩
  | 97 => ⟨S16384, .i32⟩
  | 98 => ⟨S16384, .i32⟩
  | 99 => ⟨S16384x1, .i1⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x1024, .f32⟩
  | 109 => ⟨S_, .f32⟩
  | 110 => ⟨S_, .f32⟩
  | 111 => ⟨S16384x1024, .i1⟩
  | 112 => ⟨S16384x1024, .f32⟩
  | 113 => ⟨S16384x1024, .f32⟩
  | 114 => ⟨S_, .f32⟩
  | 115 => ⟨S32x768x1024, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S4096x1024, .f32⟩

abbrev hbmTy0_1 (i : Nat) : BufTy := match i % 128 with
  | 0 => ⟨S16384, .i32⟩
  | 1 => ⟨S16384, .i32⟩
  | 2 => ⟨S16384x1, .i32⟩
  | 3 => ⟨S16384x1, .i32⟩
  | 4 => ⟨S16384x2, .i32⟩
  | 5 => ⟨S32x768x1024, .f32⟩
  | 6 => ⟨S32x1024x1024, .f32⟩
  | 7 => ⟨S32x768x1024, .f32⟩
  | 8 => ⟨S32x768x512, .f32⟩
  | 9 => ⟨S32x768x512, .f32⟩
  | 10 => ⟨S32x768x512, .f32⟩
  | 11 => ⟨S32x768x512, .f32⟩
  | 12 => ⟨S_, .f32⟩
  | 13 => ⟨S32x768x512, .f32⟩
  | 14 => ⟨S32x768x512, .f32⟩
  | 15 => ⟨S_, .f32⟩
  | 16 => ⟨S32x768x512, .f32⟩
  | 17 => ⟨S32x768x512, .f32⟩
  | 18 => ⟨S32x768x512, .f32⟩
  | 19 => ⟨S32x768x512, .f32⟩
  | 20 => ⟨S32x768x1024, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1, .i32⟩
  | 37 => ⟨S16384x2, .i32⟩
  | 38 => ⟨S16384x1024, .f32⟩
  | 39 => ⟨S_, .f32⟩
  | 40 => ⟨S_, .f32⟩
  | 41 => ⟨S16384, .f32⟩
  | 42 => ⟨S16384, .f32⟩
  | 43 => ⟨S16384x1, .f32⟩
  | 44 => ⟨S16384x1024, .f32⟩
  | 45 => ⟨S16384x1024, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1_0 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_call3_call0_c : Ref sig .tc := ⟨.hbm, 69, rfl⟩
abbrev main_call3_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_call4_v0 : Ref sig .tc := ⟨.hbm, 92, rfl⟩
abbrev main_call4_v1 : Ref sig .tc := ⟨.hbm, 93, rfl⟩
abbrev main_v60 : Ref sig .tc := ⟨.hbm, 94, rfl⟩
abbrev main_c_17 : Ref sig .tc := ⟨.hbm, 95, rfl⟩
abbrev main_call5_v0 : Ref sig .tc := ⟨.hbm, 96, rfl⟩
abbrev main_call5_v1 : Ref sig .tc := ⟨.hbm, 97, rfl⟩
abbrev main_v61 : Ref sig .tc := ⟨.hbm, 98, rfl⟩
abbrev main_v62 : Ref sig .tc := ⟨.hbm, 99, rfl⟩
abbrev main_c_18 : Ref sig .tc := ⟨.hbm, 100, rfl⟩
abbrev main_v63 : Ref sig .tc := ⟨.hbm, 101, rfl⟩
abbrev main_v64 : Ref sig .tc := ⟨.hbm, 102, rfl⟩
abbrev main_c_19 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v70 : Ref sig .tc := ⟨.hbm, 113, rfl⟩
abbrev main_cst_21 : Ref sig .tc := ⟨.hbm, 114, rfl⟩
abbrev main_v71 : Ref sig .tc := ⟨.hbm, 115, rfl⟩
abbrev main_c_22 : Ref sig .tc := ⟨.hbm, 116, rfl⟩
abbrev main_v72 : Ref sig .tc := ⟨.hbm, 117, rfl⟩
abbrev main_v73 : Ref sig .tc := ⟨.hbm, 118, rfl⟩
abbrev main_c_23 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_24 : Ref sig .tc := ⟨.hbm, 123, rfl⟩
abbrev main_v77 : Ref sig .tc := ⟨.hbm, 124, rfl⟩
abbrev main_v78 : Ref sig .tc := ⟨.hbm, 125, rfl⟩
abbrev main_c_25 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_call7_v0 : Ref sig .tc := ⟨.hbm, 138, rfl⟩
abbrev main_call7_v1 : Ref sig .tc := ⟨.hbm, 139, rfl⟩
abbrev main_call7_cst : Ref sig .tc := ⟨.hbm, 140, rfl⟩
abbrev main_call7_v2 : Ref sig .tc := ⟨.hbm, 141, rfl⟩
abbrev main_call7_v3 : Ref sig .tc := ⟨.hbm, 142, rfl⟩
abbrev main_call7_cst_0 : Ref sig .tc := ⟨.hbm, 143, rfl⟩
abbrev main_call7_v4 : Ref sig .tc := ⟨.hbm, 144, rfl⟩
abbrev main_call7_v5 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_26 : Ref sig .tc := ⟨.hbm, 149, rfl⟩
abbrev main_v93 : Ref sig .tc := ⟨.hbm, 150, rfl⟩
abbrev main_v94 : Ref sig .tc := ⟨.hbm, 151, rfl⟩
abbrev main_c_27 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_28 : Ref sig .tc := ⟨.hbm, 156, rfl⟩
abbrev main_v98 : Ref sig .tc := ⟨.hbm, 157, rfl⟩
abbrev main_v99 : Ref sig .tc := ⟨.hbm, 158, rfl⟩
abbrev main_c_29 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_30 : Ref sig .tc := ⟨.hbm, 167, rfl⟩
abbrev main_call8_v0 : Ref sig .tc := ⟨.hbm, 168, rfl⟩
abbrev main_call8_v1 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_31 : Ref sig .tc := ⟨.hbm, 174, rfl⟩
abbrev main_v111 : Ref sig .tc := ⟨.hbm, 175, rfl⟩
abbrev main_v112 : Ref sig .tc := ⟨.hbm, 176, rfl⟩
abbrev main_c_32 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩

abbrev nD : Nat := 1
abbrev τ : Topo := Topo.v7x

variable {F : FTy → Type} [FloatOps F]

class Facts₀ : Prop where
  shapeCasts_S4096x4_S16384 : S4096x4.ShapeCasts S16384
  bcast_S4096_S4096x4_0 : S4096.BroadcastsInDim S4096x4 (![0] : Fin 1 → Fin S4096x4.rank)
  bcast_S_S4096x4 : S_.BroadcastsInDim S4096x4 (![] : Fin 0 → Fin S4096x4.rank)
  reducesTo_S4096x4_S4096_d1 : S4096x4.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S40 : S_.BroadcastsInDim S40 (![] : Fin 0 → Fin S40.rank)
  bcast_S_S_ : S_.BroadcastsInDim S_ (![] : Fin 0 → Fin S_.rank)
  reduceWindows_S40_S40_w40s1p39_0 : S40.ReduceWindows (![40] : Fin 1 → Nat) ![1] ![39] ![0] S40
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bcast_S_S32x768x1024 : S_.BroadcastsInDim S32x768x1024 (![] : Fin 0 → Fin S32x768x1024.rank)
  concatenates_S16384x1_S16384x1_S16384x2_d1 : Shape.Concatenates [S16384x1, S16384x1] S16384x2 1
  slices_S40x1024x1024_S32x1024x1024_0_0_0 : S40x1024x1024.Slices ![0, 0, 0] S32x1024x1024
  slices_S32x768x1024_S32x768x512_0_0_0 : S32x768x1024.Slices ![0, 0, 0] S32x768x512
  slices_S32x768x1024_S32x768x512_0_0_512 : S32x768x1024.Slices ![0, 0, 512] S32x768x512
  bcast_S_S32x768x512 : S_.BroadcastsInDim S32x768x512 (![] : Fin 0 → Fin S32x768x512.rank)
  gather_S16384_S16384x1_S16384_n_0_n_n_0_1_1_wf : GatherDims.WF S16384 S16384x1 S16384 [] [0] [] [0] [] 1 ![1]
  scatter_S40_S16384x1_S16384_n_0_0_1_wf : ScatterDims.WF S40 S16384x1 S16384 [] [0] [0] 1
  gather_S40_S16384x1_S16384_n_0_n_n_0_1_1_wf : GatherDims.WF S40 S16384x1 S16384 [] [0] [] [0] [] 1 ![1]
  gather_S4096x1024_S16384x1_S16384x1024_1_0_n_n_0_1_11024_wf : GatherDims.WF S4096x1024 S16384x1 S16384x1024 [1] [0] [] [0] [] 1 ![1, 1024]
  scatter_S32x768x1024_S16384x2_S16384x1024_1_01_01_1_wf : ScatterDims.WF S32x768x1024 S16384x2 S16384x1024 [1] [0, 1] [0, 1] 1
  dot_S32x768x1024_S32x1024x1024_S32x768x1024_2_2_1_1_0_0_wf : DotDims.WF S32x768x1024 S32x1024x1024 S32x768x1024 [2] [2] [1] [1] [0] [0]
  dot_S32x768x512_S32x1024x512_S32x768x1024_2_2_1_1_0_0_wf : DotDims.WF S32x768x512 S32x1024x512 S32x768x1024 [2] [2] [1] [1] [0] [0]
  gather_S32x768x1024_S16384x2_S16384x1024_1_01_n_n_01_1_111024_wf : GatherDims.WF S32x768x1024 S16384x2 S16384x1024 [1] [0, 1] [] [0, 1] [] 1 ![1, 1, 1024]
  scatter_S4096x1024_S16384x1_S16384x1024_1_0_0_1_wf : ScatterDims.WF S4096x1024 S16384x1 S16384x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S40_S16384x1_S16384_n_0_0_1 : ScatterDims S40 S16384x1 S16384 where
  updateWindowDims := []
  insertedWindowDims := [0]
  scatterDimsToOperandDims := [0]
  indexVectorDim := 1
  wf := scatter_S40_S16384x1_S16384_n_0_0_1_wf
def gather_S40_S16384x1_S16384_n_0_n_n_0_1_1 : GatherDims S40 S16384x1 S16384 where
  offsetDims := []
  collapsedSliceDims := [0]
  operandBatchingDims := []
  startIndicesBatchingDims := []
  startIndexMap := [0]
  indexVectorDim := 1
  sliceSizes := ![1]
  wf := gather_S40_S16384x1_S16384_n_0_n_n_0_1_1_wf
def gather_S4096x1024_S16384x1_S16384x1024_1_0_n_n_0_1_11024 : GatherDims S4096x1024 S16384x1 S16384x1024 where
  offsetDims := [1]
  collapsedSliceDims := [0]
  operandBatchingDims := []
  startIndicesBatchingDims := []
  startIndexMap := [0]
  indexVectorDim := 1
  sliceSizes := ![1, 1024]
  wf := gather_S4096x1024_S16384x1_S16384x1024_1_0_n_n_0_1_11024_wf
def scatter_S32x768x1024_S16384x2_S16384x1024_1_01_01_1 : ScatterDims S32x768x1024 S16384x2 S16384x1024 where
  updateWindowDims := [1]
  insertedWindowDims := [0, 1]
  scatterDimsToOperandDims := [0, 1]
  indexVectorDim := 1
  wf := scatter_S32x768x1024_S16384x2_S16384x1024_1_01_01_1_wf
def dot_S32x768x1024_S32x1024x1024_S32x768x1024_2_2_1_1_0_0 : DotDims S32x768x1024 S32x1024x1024 S32x768x1024 where
  lhsContracting := [2]
  rhsContracting := [2]
  lhsNonContracting := [1]
  rhsNonContracting := [1]
  lhsBatch := [0]
  rhsBatch := [0]
  wf := dot_S32x768x1024_S32x1024x1024_S32x768x1024_2_2_1_1_0_0_wf
def dot_S32x768x512_S32x1024x512_S32x768x1024_2_2_1_1_0_0 : DotDims S32x768x512 S32x1024x512 S32x768x1024 where
  lhsContracting := [2]
  rhsContracting := [2]
  lhsNonContracting := [1]
  rhsNonContracting := [1]
  lhsBatch := [0]
  rhsBatch := [0]
  wf := dot_S32x768x512_S32x1024x512_S32x768x1024_2_2_1_1_0_0_wf
def gather_S32x768x1024_S16384x2_S16384x1024_1_01_n_n_01_1_111024 : GatherDims S32x768x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S32x768x1024_S16384x2_S16384x1024_1_01_n_n_01_1_111024_wf
def scatter_S4096x1024_S16384x1_S16384x1024_1_0_0_1 : ScatterDims S4096x1024 S16384x1 S16384x1024 where
  updateWindowDims := [1]
  insertedWindowDims := [0]
  scatterDimsToOperandDims := [0]
  indexVectorDim := 1
  wf := scatter_S4096x1024_S16384x1_S16384x1024_1_0_0_1_wf

class Facts : Prop extends Facts₀ where

variable [Facts]
-- ==== Proof.RefRun.lean ====
import proofs.«165575_j43954695308102_1_alg».proof.Proof.Gen.ReferenceIdeal
import Idealize.ShloMosaic.Lib.StableHlo.Run
import Idealize.ShloMosaic.Lib.Pipeline.Regions

/-!
# The run of the reference program

The reference program's @main is a straight line of host operations: 154 statements in three windows, nine of them
calls of module-local functions (one of which, the cumulative sum, itself calls another). Unfolding a call is
substituting the call's operands and its record of buffers into the callee's body, so @main is the straight line of
23 stretches of operations listed below — one stretch per run of @main's own operations and one per call, each
callee's operations over the buffers of its call's record, in program order. From that equation the library's run
theorem for a straight line gives: every weakly fair execution terminates, and each buffer ends at the fold of the
operations' results over the launch contents. No operation writes an argument's buffer, so the five arguments keep
their launch contents.
-/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is the reference y's, y in a list W, writes inside W. -/
theorem writes_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op h =>
    (List.mem_append.mp h).elim (List.forall_iff_forall_mem.mp h₁ op) (List.forall_iff_forall_mem.mp h₂ op)

/-- Every reference an operation of @main writes, in program order: all but the five arguments. -/
abbrev written : List (Ref sig .tc) :=
  [ main_v0, main_v1, main_v2, main_v3, main_v4, main_c, main_v5, main_v6,
    main_cst, main_call0_v0, main_call0_v1, main_v7, main_cst_0, main_v8, main_v9, main_v10,
    main_v11, main_call1_v0, main_call1_v1_0, main_v12, main_c_1, main_v13, main_v14, main_c_2,
    main_v15, main_v16, main_v17, main_v18, main_v19, main_c_3, main_v20, main_v21,
    main_c_4, main_v22, main_v23, main_v24, main_v25, main_v26, main_c_5, main_v27,
    main_v28, main_c_6, main_v29, main_v30, main_v31, main_v32, main_v33, main_c_7,
    main_v34, main_c_8, main_call2_v0, main_call2_v1, main_v35, main_c_9, main_v36, main_v37,
    main_c_10, main_v38, main_v39, main_v40, main_v41, main_c_11, main_v42, main_v43,
    main_call3_call0_c, main_call3_call0_v0, main_v44, main_v45, main_v46, main_c_12, main_v47, main_v48,
    main_c_13, main_v49, main_v50, main_v51, main_v52, main_v53, main_v54, main_c_14,
    main_v55, main_v56, main_c_15, main_v57, main_v58, main_v59, main_c_16, main_call4_v0,
    main_call4_v1, main_v60, main_c_17, main_call5_v0, main_call5_v1, main_v61, main_v62, main_c_18,
    main_v63, main_v64, main_c_19, main_v65, main_v66, main_v67, main_v68, main_v69,
    main_cst_20, main_call6_v0, main_call6_v1, main_call6_v2, main_v70, main_cst_21, main_v71, main_c_22,
    main_v72, main_v73, main_c_23, main_v74, main_v75, main_v76, main_c_24, main_v77,
    main_v78, main_c_25, main_v79, main_v80, main_v81, main_v82, main_v83, main_v84,
    main_v85, main_v86, main_v87, main_v88, main_v89, main_call7_v0, main_call7_v1, main_call7_cst,
    main_call7_v2, main_call7_v3, main_call7_cst_0, main_call7_v4, main_call7_v5, main_v90, main_v91, main_v92,
    main_c_26, main_v93, main_v94, main_c_27, main_v95, main_v96, main_v97, main_c_28,
    main_v98, main_v99, main_c_29, main_v100, main_v101, main_v102, main_v103, main_v104,
    main_v105, main_v106, main_cst_30, main_call8_v0, main_call8_v1, main_v107, main_v108, main_v109,
    main_v110, main_c_31, main_v111, main_v112, main_c_32, main_v113, main_v114, main_v115,
    main_v116, main_v117 ]

/-- 9 operations of @main, in program order. -/
abbrev pre0 : List (HloOp τ sig (Elt F)) :=
  [ StableHlo.reshape main_arg1 main_v0 rfl shapeCasts_S4096x4_S16384,
    StableHlo.nullary main_v1 (iotaInDim S4096 32 0),
    StableHlo.unary main_v1 main_v2 (broadcastInDim S4096x4 ![0] bcast_S4096_S4096x4_0 : (⟨S4096, .i32⟩ : BufTy).Contents (Elt F) → (⟨S4096x4, .i32⟩ : BufTy).Contents (Elt F)),
    StableHlo.reshape main_v2 main_v3 rfl shapeCasts_S4096x4_S16384,
    StableHlo.reshape main_arg2 main_v4 rfl shapeCasts_S4096x4_S16384,
    StableHlo.nullary main_c (constantI S_ 32 32#32),
    StableHlo.unary main_c main_v5 (broadcastInDim S4096x4 ![] bcast_S_S4096x4 : (⟨S_, .i32⟩ : BufTy).Contents (Elt F) → (⟨S4096x4, .i32⟩ : BufTy).Contents (Elt F)),
    StableHlo.binary main_arg1 main_v5 main_v6 (cmpi .sge : (⟨S4096x4, .i32⟩ : BufTy).Contents (Elt F) → (⟨S4096x4, .i32⟩ : BufTy).Contents (Elt F) → (⟨S4096x4, .i1⟩ : BufTy).Contents (Elt F)),
    StableHlo.nullary main_cst (constant S_ .f32 0x00000000#32) ]
theorem pre0_sub : (pre0 : List (HloOp τ sig (Elt F))).Forall fun op => op.bufs ⊆ tcRefs τ sig :=
  ⟨reshape_bufs_sub .., nullary_bufs_sub .., unary_bufs_sub .., reshape_bufs_sub .., reshape_bufs_sub .., nullary_bufs_sub .., unary_bufs_sub .., binary_bufs_sub .., nullary_bufs_sub ..⟩
theorem pre0_fresh : (pre0 : List (HloOp τ sig (Elt F))).Forall fun op => op.fresh = ∅ := by
  simp only [List.Forall]; repeat' constructor
theorem pre0_writes : (pre0 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of fn_where over main_call0, in program order. -/
abbrev pre1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096x4, .f32⟩) (broadcastInDim S4096x4 ![] bcast_S_S4096x4),
    StableHlo.TRef.ternary (.of main_v6 : StableHlo.TRef sig ⟨S4096x4, .i1⟩) (.of main_arg2 : StableHlo.TRef sig ⟨S4096x4, .f32⟩) (.of main_call0_v1 : StableHlo.TRef sig ⟨S4096x4, .f32⟩) (.of main_v7 : StableHlo.TRef sig ⟨S4096x4, .f32⟩) select ]
theorem pre1_sub : (pre1 : List (HloOp τ sig (Elt F))).Forall fun op => op.bufs ⊆ tcRefs τ sig :=
  ⟨unary_bufs_sub .., unary_bufs_sub .., ternary_bufs_sub ..⟩
theorem pre1_fresh : (pre1 : List (HloOp τ sig (Elt F))).Forall fun op => op.fresh = ∅ := by
  simp only [List.Forall]; repeat' constructor
theorem pre1_writes : (pre1 : List (HloOp τ sig (Elt F))).Forall fun op => op.writes ⊆ (written.map (Proc.devRef (τ := τ) .tc)).toFinset :=
  ⟨writes_sub rfl (by decide), writes_sub rfl (by decide), writes_sub rfl (by decide)⟩

/-- 5 operations of @main, in program order. -/
abbrev pre2 : List (HloOp τ sig (Elt F)) :=
  [ StableHlo.nullary main_cst_0 (constant S_ .f32 0x00000000#32),
    StableHlo.binary main_v7 main_cst_0 main_v8 ((fun x v => Host.reduceAdd x v reducesTo_S4096x4_S4096_d1 h_S_) : (⟨S4096x4, .f32⟩ : BufTy).Contents (Elt F) → (⟨S_, .f32⟩ : BufTy).Contents (Elt F) → (⟨S4096, .f32⟩ : BufTy).Contents (Elt F)),
    StableHlo.unary main_v8 main_v9 (broadcastInDim S4096x1 ![0] bcast_S4096_S4096x1_0 : (⟨S4096, .f32⟩ : BufTy).Contents (Elt F) → (⟨S4096x1, .f32⟩ : BufTy).Contents (Elt F)),
    StableHlo.unary main_v9 main_v10 (broadcastInDim S4096x1024 ![0, 1] bcast_S4096x1_S4096x1024_0_1 : (⟨S4096x1, .f32⟩ : BufTy).Contents (Elt F) → (⟨S4096x1024, .f32⟩ : BufTy).Contents (Elt F)),
    StableHlo.binary main_arg0 main_v10 main_v11 (mulf : (⟨S4096x1024, .f32⟩ : BufTy).Contents (Elt F) → (⟨S4096x1024, .f32⟩ : BufTy).Contents (Elt F) → (⟨S4096x1024, .f32⟩ : BufTy).Contents (Elt F)) ]
theorem pre2_sub : (pre2 : List (HloOp τ sig (Elt F))).Forall fun op => op.bufs ⊆ tcRefs τ sig :=
  ⟨nullary_bufs_sub .., binary_bufs_sub .., unary_bufs_sub .., unary_bufs_sub .., binary_bufs_sub ..⟩
theorem pre2_fresh : (pre2 : List (HloOp τ sig (Elt F))).Forall fun op => op.fresh = ∅ := by
  simp only [List.Forall]; repeat' constructor
theorem pre2_writes : (pre2 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide)⟩

/-- 3 operations of fn_argsort over main_call1, in program order. -/
abbrev pre3 : List (HloOp τ sig (Elt F)) :=
  [ StableHlo.TRef.nullary (.of main_call1_v0 : StableHlo.TRef sig ⟨S16384, .i32⟩) (iotaInDim S16384 32 0),
    StableHlo.TRef.binary (.of main_v0 : StableHlo.TRef sig ⟨S16384, .i32⟩) (.of main_call1_v0 : StableHlo.TRef sig ⟨S16384, .i32⟩) (.of main_call1_v1_0 : StableHlo.TRef sig ⟨S16384, .i32⟩) (fun x y => (Host.sort2 S16384 0 comparator_i32_i32_d0 x y).1),
    StableHlo.TRef.binary (.of main_v0 : StableHlo.TRef sig ⟨S16384, .i32⟩) (.of main_call1_v0 : StableHlo.TRef sig ⟨S16384, .i32⟩) (.of main_v12 : StableHlo.TRef sig ⟨S16384, .i32⟩) (fun x y => (Host.sort2 S16384 0 comparator_i32_i32_d0 x y).2) ]
theorem pre3_sub : (pre3 : List (HloOp τ sig (Elt F))).Forall fun op => op.bufs ⊆ tcRefs τ sig :=
  ⟨nullary_bufs_sub .., binary_bufs_sub .., binary_bufs_sub ..⟩
theorem pre3_fresh : (pre3 : List (HloOp τ sig (Elt F))).Forall fun op => op.fresh = ∅ := by
  simp only [List.Forall]; repeat' constructor
theorem pre3_writes : (pre3 : List (HloOp τ sig (Elt F))).Forall fun op => op.writes ⊆ (written.map (Proc.devRef (τ := τ) .tc)).toFinset :=
  ⟨writes_sub rfl (by decide), writes_sub rfl (by decide), writes_sub rfl (by decide)⟩

/-- 30 operations of @main, in program order. -/
abbrev pre4 : List (HloOp τ sig (Elt F)) :=
  [ StableHlo.nullary main_c_1 (constantI S_ 32 0#32),
    StableHlo.unary main_c_1 main_v13 (broadcastInDim S16384 ![] bcast_S_S16384 : (⟨S_, .i32⟩ : BufTy).Contents (Elt F) → (⟨S16384, .i32⟩ : BufTy).Contents (Elt F)),
    StableHlo.binary main_v12 main_v13 main_v14 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 16384#32),
    StableHlo.unary main_c_2 main_v15 (broadcastInDim S16384 ![] bcast_S_S16384 : (⟨S_, .i32⟩ : BufTy).Contents (Elt F) → (⟨S16384, .i32⟩ : BufTy).Contents (Elt F)),
    StableHlo.binary main_v12 main_v15 main_v16 (addi : (⟨S16384, .i32⟩ : BufTy).Contents (Elt F) → (⟨S16384, .i32⟩ : BufTy).Contents (Elt F) → (⟨S16384, .i32⟩ : BufTy).Contents (Elt F)),
    StableHlo.ternary main_v14 main_v16 main_v12 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v17 main_v18 (broadcastInDim S16384x1 ![0] bcast_S16384_S16384x1_0 : (⟨S16384, .i32⟩ : BufTy).Contents (Elt F) → (⟨S16384x1, .i32⟩ : BufTy).Contents (Elt F)),
    StableHlo.binary main_v0 main_v18 main_v19 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_3 (constantI S_ 32 0#32),
    StableHlo.unary main_c_3 main_v20 (broadcastInDim S16384 ![] bcast_S_S16384 : (⟨S_, .i32⟩ : BufTy).Contents (Elt F) → (⟨S16384, .i32⟩ : BufTy).Contents (Elt F)),
    StableHlo.binary main_v12 main_v20 main_v21 (cmpi .slt : (⟨S16384, .i32⟩ : BufTy).Contents (Elt F) → (⟨S16384, .i32⟩ : BufTy).Contents (Elt F) → (⟨S16384, .i1⟩ : BufTy).Contents (Elt F)),
    StableHlo.nullary main_c_4 (constantI S_ 32 16384#32),
    StableHlo.unary main_c_4 main_v22 (broadcastInDim S16384 ![] bcast_S_S16384 : (⟨S_, .i32⟩ : BufTy).Contents (Elt F) → (⟨S16384, .i32⟩ : BufTy).Contents (Elt F)),
    StableHlo.binary main_v12 main_v22 main_v23 (addi : (⟨S16384, .i32⟩ : BufTy).Contents (Elt F) → (⟨S16384, .i32⟩ : BufTy).Contents (Elt F) → (⟨S16384, .i32⟩ : BufTy).Contents (Elt F)),
    StableHlo.ternary main_v21 main_v23 main_v12 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v24 main_v25 (broadcastInDim S16384x1 ![0] bcast_S16384_S16384x1_0 : (⟨S16384, .i32⟩ : BufTy).Contents (Elt F) → (⟨S16384x1, .i32⟩ : BufTy).Contents (Elt F)),
    StableHlo.binary main_v3 main_v25 main_v26 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_5 (constantI S_ 32 0#32),
    StableHlo.unary main_c_5 main_v27 (broadcastInDim S16384 ![] bcast_S_S16384 : (⟨S_, .i32⟩ : BufTy).Contents (Elt F) → (⟨S16384, .i32⟩ : BufTy).Contents (Elt F)),
    StableHlo.binary main_v12 main_v27 main_v28 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16384#32),
    StableHlo.unary main_c_6 main_v29 (broadcastInDim S16384 ![] bcast_S_S16384 : (⟨S_, .i32⟩ : BufTy).Contents (Elt F) → (⟨S16384, .i32⟩ : BufTy).Contents (Elt F)),
    StableHlo.binary main_v12 main_v29 main_v30 (addi : (⟨S16384, .i32⟩ : BufTy).Contents (Elt F) → (⟨S16384, .i32⟩ : BufTy).Contents (Elt F) → (⟨S16384, .i32⟩ : BufTy).Contents (Elt F)),
    StableHlo.ternary main_v28 main_v30 main_v12 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v31 main_v32 (broadcastInDim S16384x1 ![0] bcast_S16384_S16384x1_0 : (⟨S16384, .i32⟩ : BufTy).Contents (Elt F) → (⟨S16384x1, .i32⟩ : BufTy).Contents (Elt F)),
    StableHlo.binary main_v4 main_v32 main_v33 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    StableHlo.nullary main_c_7 (constantI S_ 32 0#32),
    StableHlo.unary main_c_7 main_v34 (broadcastInDim S40 ![] bcast_S_S40 : (⟨S_, .i32⟩ : BufTy).Contents (Elt F) → (⟨S40, .i32⟩ : BufTy).Contents (Elt F)),
    StableHlo.nullary main_c_8 (constantI S_ 32 0#32) ]
theorem pre4_sub : (pre4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub ..⟩
theorem pre4_fresh : (pre4 : List (HloOp τ sig (Elt F))).Forall fun op => op.fresh = ∅ := by
  simp only [List.Forall]; repeat' constructor
theorem pre4_writes : (pre4 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of fn_clip over main_call2, in program order. -/
abbrev pre5 : List (HloOp τ sig (Elt F)) :=
  [ StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.binary (.of main_call2_v1 : StableHlo.TRef sig ⟨S16384, .i32⟩) (.of main_v0 : StableHlo.TRef sig ⟨S16384, .i32⟩) (.of main_v35 : StableHlo.TRef sig ⟨S16384, .i32⟩) maxsi ]
theorem pre5_sub : (pre5 : List (HloOp τ sig (Elt F))).Forall fun op => op.bufs ⊆ tcRefs τ sig :=
  ⟨unary_bufs_sub .., unary_bufs_sub .., binary_bufs_sub ..⟩
theorem pre5_fresh : (pre5 : List (HloOp τ sig (Elt F))).Forall fun op => op.fresh = ∅ := by
  simp only [List.Forall]; repeat' constructor
theorem pre5_writes : (pre5 : List (HloOp τ sig (Elt F))).Forall fun op => op.writes ⊆ (written.map (Proc.devRef (τ := τ) .tc)).toFinset :=
  ⟨writes_sub rfl (by decide), writes_sub rfl (by decide), writes_sub rfl (by decide)⟩

/-- 11 operations of @main, in program order. -/
abbrev pre6 : List (HloOp τ sig (Elt F)) :=
  [ StableHlo.nullary main_c_9 (constantI S_ 32 0#32),
    StableHlo.unary main_c_9 main_v36 (broadcastInDim S16384 ![] bcast_S_S16384 : (⟨S_, .i32⟩ : BufTy).Contents (Elt F) → (⟨S16384, .i32⟩ : BufTy).Contents (Elt F)),
    StableHlo.binary main_v35 main_v36 main_v37 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 40#32),
    StableHlo.unary main_c_10 main_v38 (broadcastInDim S16384 ![] bcast_S_S16384 : (⟨S_, .i32⟩ : BufTy).Contents (Elt F) → (⟨S16384, .i32⟩ : BufTy).Contents (Elt F)),
    StableHlo.binary main_v35 main_v38 main_v39 (addi : (⟨S16384, .i32⟩ : BufTy).Contents (Elt F) → (⟨S16384, .i32⟩ : BufTy).Contents (Elt F) → (⟨S16384, .i32⟩ : BufTy).Contents (Elt F)),
    StableHlo.ternary main_v37 main_v39 main_v35 main_v40 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v40 main_v41 (broadcastInDim S16384x1 ![0] bcast_S16384_S16384x1_0 : (⟨S16384, .i32⟩ : BufTy).Contents (Elt F) → (⟨S16384x1, .i32⟩ : BufTy).Contents (Elt F)),
    StableHlo.nullary main_c_11 (constantI S_ 32 1#32),
    StableHlo.unary main_c_11 main_v42 (broadcastInDim S16384 ![] bcast_S_S16384 : (⟨S_, .i32⟩ : BufTy).Contents (Elt F) → (⟨S16384, .i32⟩ : BufTy).Contents (Elt F)),
    StableHlo.ternary main_v34 main_v41 main_v42 main_v43 ((fun x i u => Host.scatter scatter_S40_S16384x1_S16384_n_0_0_1 IntOp.addi x i u) : (⟨S40, .i32⟩ : BufTy).Contents (Elt F) → (⟨S16384x1, .i32⟩ : BufTy).Contents (Elt F) → (⟨S16384, .i32⟩ : BufTy).Contents (Elt F) → (⟨S40, .i32⟩ : BufTy).Contents (Elt F)) ]
theorem pre6_sub : (pre6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem pre6_fresh : (pre6 : List (HloOp τ sig (Elt F))).Forall fun op => op.fresh = ∅ := by
  simp only [List.Forall]; repeat' constructor
theorem pre6_writes : (pre6 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of fn_cumsum over main_call3, in program order. -/
abbrev pre7 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v43 : StableHlo.TRef sig ⟨S40, .i32⟩) (.of main_call3_call0_v0 : StableHlo.TRef sig ⟨S_, .i32⟩) (.of main_v44 : StableHlo.TRef sig ⟨S40, .i32⟩) (fun x v => Host.reduceWindow IntOp.addi ![40] ![1] ![39] ![0] x v reduceWindows_S40_S40_w40s1p39_0 h_S_) ]
theorem pre7_sub : (pre7 : List (HloOp τ sig (Elt F))).Forall fun op => op.bufs ⊆ tcRefs τ sig :=
  ⟨nullary_bufs_sub .., unary_bufs_sub .., binary_bufs_sub ..⟩
theorem pre7_fresh : (pre7 : List (HloOp τ sig (Elt F))).Forall fun op => op.fresh = ∅ := by
  simp only [List.Forall]; repeat' constructor
theorem pre7_writes : (pre7 : List (HloOp τ sig (Elt F))).Forall fun op => op.writes ⊆ (written.map (Proc.devRef (τ := τ) .tc)).toFinset :=
  ⟨writes_sub rfl (by decide), writes_sub rfl (by decide), writes_sub rfl (by decide)⟩

/-- 1 operation of @main, in program order. -/
abbrev pre8 : List (HloOp τ sig (Elt F)) :=
  [ StableHlo.binary main_v44 main_v43 main_v45 (subi : (⟨S40, .i32⟩ : BufTy).Contents (Elt F) → (⟨S40, .i32⟩ : BufTy).Contents (Elt F) → (⟨S40, .i32⟩ : BufTy).Contents (Elt F)) ]
theorem pre8_sub : (pre8 : List (HloOp τ sig (Elt F))).Forall fun op => op.bufs ⊆ tcRefs τ sig :=
  binary_bufs_sub ..
theorem pre8_fresh : (pre8 : List (HloOp τ sig (Elt F))).Forall fun op => op.fresh = ∅ := by
  simp only [List.Forall]; repeat' constructor
theorem pre8_writes : (pre8 : List (HloOp τ sig (Elt F))).Forall fun op => op.writes ⊆ (written.map (Proc.devRef (τ := τ) .tc)).toFinset :=
  writes_sub rfl (by decide)

/-- 19 operations of @main, in program order. -/
abbrev pre9 : List (HloOp τ sig (Elt F)) :=
  [ StableHlo.nullary main_v46 (iotaInDim S16384 32 0),
    StableHlo.nullary main_c_12 (constantI S_ 32 0#32),
    StableHlo.unary main_c_12 main_v47 (broadcastInDim S16384 ![] bcast_S_S16384 : (⟨S_, .i32⟩ : BufTy).Contents (Elt F) → (⟨S16384, .i32⟩ : BufTy).Contents (Elt F)),
    StableHlo.binary main_v19 main_v47 main_v48 (cmpi .slt : (⟨S16384, .i32⟩ : BufTy).Contents (Elt F) → (⟨S16384, .i32⟩ : BufTy).Contents (Elt F) → (⟨S16384, .i1⟩ : BufTy).Contents (Elt F)),
    StableHlo.nullary main_c_13 (constantI S_ 32 40#32),
    StableHlo.unary main_c_13 main_v49 (broadcastInDim S16384 ![] bcast_S_S16384 : (⟨S_, .i32⟩ : BufTy).Contents (Elt F) → (⟨S16384, .i32⟩ : BufTy).Contents (Elt F)),
    StableHlo.binary main_v19 main_v49 main_v50 (addi : (⟨S16384, .i32⟩ : BufTy).Contents (Elt F) → (⟨S16384, .i32⟩ : BufTy).Contents (Elt F) → (⟨S16384, .i32⟩ : BufTy).Contents (Elt F)),
    StableHlo.ternary main_v48 main_v50 main_v19 main_v51 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v51 main_v52 (broadcastInDim S16384x1 ![0] bcast_S16384_S16384x1_0 : (⟨S16384, .i32⟩ : BufTy).Contents (Elt F) → (⟨S16384x1, .i32⟩ : BufTy).Contents (Elt F)),
    StableHlo.binary main_v45 main_v52 main_v53 ((fun x i => Host.gather gather_S40_S16384x1_S16384_n_0_n_n_0_1_1 x i) : (⟨S40, .i32⟩ : BufTy).Contents (Elt F) → (⟨S16384x1, .i32⟩ : BufTy).Contents (Elt F) → (⟨S16384, .i32⟩ : BufTy).Contents (Elt F)),
    StableHlo.binary main_v46 main_v53 main_v54 (subi : (⟨S16384, .i32⟩ : BufTy).Contents (Elt F) → (⟨S16384, .i32⟩ : BufTy).Contents (Elt F) → (⟨S16384, .i32⟩ : BufTy).Contents (Elt F)),
    StableHlo.nullary main_c_14 (constantI S_ 32 32#32),
    StableHlo.unary main_c_14 main_v55 (broadcastInDim S16384 ![] bcast_S_S16384 : (⟨S_, .i32⟩ : BufTy).Contents (Elt F) → (⟨S16384, .i32⟩ : BufTy).Contents (Elt F)),
    StableHlo.binary main_v19 main_v55 main_v56 (cmpi .slt : (⟨S16384, .i32⟩ : BufTy).Contents (Elt F) → (⟨S16384, .i32⟩ : BufTy).Contents (Elt F) → (⟨S16384, .i1⟩ : BufTy).Contents (Elt F)),
    StableHlo.nullary main_c_15 (constantI S_ 32 768#32),
    StableHlo.unary main_c_15 main_v57 (broadcastInDim S16384 ![] bcast_S_S16384 : (⟨S_, .i32⟩ : BufTy).Contents (Elt F) → (⟨S16384, .i32⟩ : BufTy).Contents (Elt F)),
    StableHlo.binary main_v54 main_v57 main_v58 (cmpi .slt : (⟨S16384, .i32⟩ : BufTy).Contents (Elt F) → (⟨S16384, .i32⟩ : BufTy).Contents (Elt F) → (⟨S16384, .i1⟩ : BufTy).Contents (Elt F)),
    StableHlo.binary main_v56 main_v58 main_v59 (andi : (⟨S16384, .i1⟩ : BufTy).Contents (Elt F) → (⟨S16384, .i1⟩ : BufTy).Contents (Elt F) → (⟨S16384, .i1⟩ : BufTy).Contents (Elt F)),
    StableHlo.nullary main_c_16 (constantI S_ 32 0#32) ]
theorem pre9_sub : (pre9 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub ..⟩
theorem pre9_fresh : (pre9 : List (HloOp τ sig (Elt F))).Forall fun op => op.fresh = ∅ := by
  simp only [List.Forall]; repeat' constructor
theorem pre9_writes : (pre9 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of fn_where_1 over main_call4, in program order. -/
abbrev pre10 : List (HloOp τ sig (Elt F)) :=
  [ StableHlo.TRef.unary (.of main_c_16 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16384, .i32⟩) (broadcastInDim S16384 ![] bcast_S_S16384),
    StableHlo.TRef.ternary (.of main_v59 : StableHlo.TRef sig ⟨S16384, .i1⟩) (.of main_v19 : StableHlo.TRef sig ⟨S16384, .i32⟩) (.of main_call4_v1 : StableHlo.TRef sig ⟨S16384, .i32⟩) (.of main_v60 : StableHlo.TRef sig ⟨S16384, .i32⟩) select ]
theorem pre10_sub : (pre10 : List (HloOp τ sig (Elt F))).Forall fun op => op.bufs ⊆ tcRefs τ sig :=
  ⟨unary_bufs_sub .., unary_bufs_sub .., ternary_bufs_sub ..⟩
theorem pre10_fresh : (pre10 : List (HloOp τ sig (Elt F))).Forall fun op => op.fresh = ∅ := by
  simp only [List.Forall]; repeat' constructor
theorem pre10_writes : (pre10 : List (HloOp τ sig (Elt F))).Forall fun op => op.writes ⊆ (written.map (Proc.devRef (τ := τ) .tc)).toFinset :=
  ⟨writes_sub rfl (by decide), writes_sub rfl (by decide), writes_sub rfl (by decide)⟩

/-- 1 operation of @main, in program order. -/
abbrev pre11 : List (HloOp τ sig (Elt F)) :=
  [ StableHlo.nullary main_c_17 (constantI S_ 32 0#32) ]
theorem pre11_sub : (pre11 : List (HloOp τ sig (Elt F))).Forall fun op => op.bufs ⊆ tcRefs τ sig :=
  nullary_bufs_sub ..
theorem pre11_fresh : (pre11 : List (HloOp τ sig (Elt F))).Forall fun op => op.fresh = ∅ := by
  simp only [List.Forall]; repeat' constructor
theorem pre11_writes : (pre11 : List (HloOp τ sig (Elt F))).Forall fun op => op.writes ⊆ (written.map (Proc.devRef (τ := τ) .tc)).toFinset :=
  writes_sub rfl (by decide)

/-- 3 operations of fn_where_1 over main_call5, in program order. -/
abbrev pre12 : List (HloOp τ sig (Elt F)) :=
  [ StableHlo.TRef.unary (.of main_c_17 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S16384, .i32⟩) (broadcastInDim S16384 ![] bcast_S_S16384),
    StableHlo.TRef.ternary (.of main_v59 : StableHlo.TRef sig ⟨S16384, .i1⟩) (.of main_v54 : StableHlo.TRef sig ⟨S16384, .i32⟩) (.of main_call5_v1 : StableHlo.TRef sig ⟨S16384, .i32⟩) (.of main_v61 : StableHlo.TRef sig ⟨S16384, .i32⟩) select ]
theorem pre12_sub : (pre12 : List (HloOp τ sig (Elt F))).Forall fun op => op.bufs ⊆ tcRefs τ sig :=
  ⟨unary_bufs_sub .., unary_bufs_sub .., ternary_bufs_sub ..⟩
theorem pre12_fresh : (pre12 : List (HloOp τ sig (Elt F))).Forall fun op => op.fresh = ∅ := by
  simp only [List.Forall]; repeat' constructor
theorem pre12_writes : (pre12 : List (HloOp τ sig (Elt F))).Forall fun op => op.writes ⊆ (written.map (Proc.devRef (τ := τ) .tc)).toFinset :=
  ⟨writes_sub rfl (by decide), writes_sub rfl (by decide), writes_sub rfl (by decide)⟩

/-- 11 operations of @main, in program order. -/
abbrev pre13 : List (HloOp τ sig (Elt F)) :=
  [ StableHlo.unary main_v59 main_v62 (broadcastInDim S16384x1 ![0] bcast_S16384_S16384x1_0 : (⟨S16384, .i1⟩ : BufTy).Contents (Elt F) → (⟨S16384x1, .i1⟩ : BufTy).Contents (Elt F)),
    StableHlo.nullary main_c_18 (constantI S_ 32 0#32),
    StableHlo.unary main_c_18 main_v63 (broadcastInDim S16384 ![] bcast_S_S16384 : (⟨S_, .i32⟩ : BufTy).Contents (Elt F) → (⟨S16384, .i32⟩ : BufTy).Contents (Elt F)),
    StableHlo.binary main_v26 main_v63 main_v64 (cmpi .slt : (⟨S16384, .i32⟩ : BufTy).Contents (Elt F) → (⟨S16384, .i32⟩ : BufTy).Contents (Elt F) → (⟨S16384, .i1⟩ : BufTy).Contents (Elt F)),
    StableHlo.nullary main_c_19 (constantI S_ 32 4096#32),
    StableHlo.unary main_c_19 main_v65 (broadcastInDim S16384 ![] bcast_S_S16384 : (⟨S_, .i32⟩ : BufTy).Contents (Elt F) → (⟨S16384, .i32⟩ : BufTy).Contents (Elt F)),
    StableHlo.binary main_v26 main_v65 main_v66 (addi : (⟨S16384, .i32⟩ : BufTy).Contents (Elt F) → (⟨S16384, .i32⟩ : BufTy).Contents (Elt F) → (⟨S16384, .i32⟩ : BufTy).Contents (Elt F)),
    StableHlo.ternary main_v64 main_v66 main_v26 main_v67 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v67 main_v68 (broadcastInDim S16384x1 ![0] bcast_S16384_S16384x1_0 : (⟨S16384, .i32⟩ : BufTy).Contents (Elt F) → (⟨S16384x1, .i32⟩ : BufTy).Contents (Elt F)),
    StableHlo.binary main_arg0 main_v68 main_v69 ((fun x i => Host.gather gather_S4096x1024_S16384x1_S16384x1024_1_0_n_n_0_1_11024 x i) : (⟨S4096x1024, .f32⟩ : BufTy).Contents (Elt F) → (⟨S16384x1, .i32⟩ : BufTy).Contents (Elt F) → (⟨S16384x1024, .f32⟩ : BufTy).Contents (Elt F)),
    StableHlo.nullary main_cst_20 (constant S_ .f32 0x00000000#32) ]
theorem pre13_sub : (pre13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
theorem pre13_fresh : (pre13 : List (HloOp τ sig (Elt F))).Forall fun op => op.fresh = ∅ := by
  simp only [List.Forall]; repeat' constructor
theorem pre13_writes : (pre13 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 4 operations of fn_where_2 over main_call6, in program order. -/
abbrev pre14 : List (HloOp τ sig (Elt F)) :=
  [ StableHlo.TRef.unary (.of main_cst_20 : StableHlo.TRef sig ⟨S_, .f32⟩) (.of main_call6_v0 : StableHlo.TRef sig ⟨S_, .f32⟩) id,
    StableHlo.TRef.unary (.of main_v62 : StableHlo.TRef sig ⟨S16384x1, .i1⟩) (.of main_call6_v1 : StableHlo.TRef sig ⟨S16384x1024, .i1⟩) (broadcastInDim S16384x1024 ![0, 1] bcast_S16384x1_S16384x1024_0_1),
    StableHlo.TRef.unary (.of main_call6_v0 : StableHlo.TRef sig ⟨S_, .f32⟩) (.of main_call6_v2 : StableHlo.TRef sig ⟨S16384x1024, .f32⟩) (broadcastInDim S16384x1024 ![] bcast_S_S16384x1024),
    StableHlo.TRef.ternary (.of main_call6_v1 : StableHlo.TRef sig ⟨S16384x1024, .i1⟩) (.of main_v69 : StableHlo.TRef sig ⟨S16384x1024, .f32⟩) (.of main_call6_v2 : StableHlo.TRef sig ⟨S16384x1024, .f32⟩) (.of main_v70 : StableHlo.TRef sig ⟨S16384x1024, .f32⟩) select ]
theorem pre14_sub : (pre14 : List (HloOp τ sig (Elt F))).Forall fun op => op.bufs ⊆ tcRefs τ sig :=
  ⟨unary_bufs_sub .., unary_bufs_sub .., unary_bufs_sub .., ternary_bufs_sub ..⟩
theorem pre14_fresh : (pre14 : List (HloOp τ sig (Elt F))).Forall fun op => op.fresh = ∅ := by
  simp only [List.Forall]; repeat' constructor
theorem pre14_writes : (pre14 : List (HloOp τ sig (Elt F))).Forall fun op => op.writes ⊆ (written.map (Proc.devRef (τ := τ) .tc)).toFinset :=
  ⟨writes_sub rfl (by decide), writes_sub rfl (by decide), writes_sub rfl (by decide), writes_sub rfl (by decide)⟩

/-- 21 operations of @main, in program order. -/
abbrev pre15 : List (HloOp τ sig (Elt F)) :=
  [ StableHlo.nullary main_cst_21 (constant S_ .f32 0x00000000#32),
    StableHlo.unary main_cst_21 main_v71 (broadcastInDim S32x768x1024 ![] bcast_S_S32x768x1024 : (⟨S_, .f32⟩ : BufTy).Contents (Elt F) → (⟨S32x768x1024, .f32⟩ : BufTy).Contents (Elt F)),
    StableHlo.nullary main_c_22 (constantI S_ 32 0#32),
    StableHlo.unary main_c_22 main_v72 (broadcastInDim S16384 ![] bcast_S_S16384 : (⟨S_, .i32⟩ : BufTy).Contents (Elt F) → (⟨S16384, .i32⟩ : BufTy).Contents (Elt F)),
    StableHlo.binary main_v60 main_v72 main_v73 (cmpi .slt : (⟨S16384, .i32⟩ : BufTy).Contents (Elt F) → (⟨S16384, .i32⟩ : BufTy).Contents (Elt F) → (⟨S16384, .i1⟩ : BufTy).Contents (Elt F)),
    StableHlo.nullary main_c_23 (constantI S_ 32 32#32),
    StableHlo.unary main_c_23 main_v74 (broadcastInDim S16384 ![] bcast_S_S16384 : (⟨S_, .i32⟩ : BufTy).Contents (Elt F) → (⟨S16384, .i32⟩ : BufTy).Contents (Elt F)),
    StableHlo.binary main_v60 main_v74 main_v75 (addi : (⟨S16384, .i32⟩ : BufTy).Contents (Elt F) → (⟨S16384, .i32⟩ : BufTy).Contents (Elt F) → (⟨S16384, .i32⟩ : BufTy).Contents (Elt F)),
    StableHlo.ternary main_v73 main_v75 main_v60 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_24 (constantI S_ 32 0#32),
    StableHlo.unary main_c_24 main_v77 (broadcastInDim S16384 ![] bcast_S_S16384 : (⟨S_, .i32⟩ : BufTy).Contents (Elt F) → (⟨S16384, .i32⟩ : BufTy).Contents (Elt F)),
    StableHlo.binary main_v61 main_v77 main_v78 (cmpi .slt : (⟨S16384, .i32⟩ : BufTy).Contents (Elt F) → (⟨S16384, .i32⟩ : BufTy).Contents (Elt F) → (⟨S16384, .i1⟩ : BufTy).Contents (Elt F)),
    StableHlo.nullary main_c_25 (constantI S_ 32 768#32),
    StableHlo.unary main_c_25 main_v79 (broadcastInDim S16384 ![] bcast_S_S16384 : (⟨S_, .i32⟩ : BufTy).Contents (Elt F) → (⟨S16384, .i32⟩ : BufTy).Contents (Elt F)),
    StableHlo.binary main_v61 main_v79 main_v80 (addi : (⟨S16384, .i32⟩ : BufTy).Contents (Elt F) → (⟨S16384, .i32⟩ : BufTy).Contents (Elt F) → (⟨S16384, .i32⟩ : BufTy).Contents (Elt F)),
    StableHlo.ternary main_v78 main_v80 main_v61 main_v81 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v76 main_v82 (broadcastInDim S16384x1 ![0] bcast_S16384_S16384x1_0 : (⟨S16384, .i32⟩ : BufTy).Contents (Elt F) → (⟨S16384x1, .i32⟩ : BufTy).Contents (Elt F)),
    StableHlo.unary main_v81 main_v83 (broadcastInDim S16384x1 ![0] bcast_S16384_S16384x1_0 : (⟨S16384, .i32⟩ : BufTy).Contents (Elt F) → (⟨S16384x1, .i32⟩ : BufTy).Contents (Elt F)),
    StableHlo.binary main_v82 main_v83 main_v84 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v71 main_v84 main_v70 main_v85 ((fun x i u => Host.scatterAdd scatter_S32x768x1024_S16384x2_S16384x1024_1_01_01_1 x i u) : (⟨S32x768x1024, .f32⟩ : BufTy).Contents (Elt F) → (⟨S16384x2, .i32⟩ : BufTy).Contents (Elt F) → (⟨S16384x1024, .f32⟩ : BufTy).Contents (Elt F) → (⟨S32x768x1024, .f32⟩ : BufTy).Contents (Elt F)),
    StableHlo.unary main_arg3 main_v86 ((extractStridedSlice S32x1024x1024 ![0, 0, 0] · slices_S40x1024x1024_S32x1024x1024_0_0_0) : (⟨S40x1024x1024, .f32⟩ : BufTy).Contents (Elt F) → (⟨S32x1024x1024, .f32⟩ : BufTy).Contents (Elt F)) ]
theorem pre15_sub : (pre15 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub ..⟩
theorem pre15_fresh : (pre15 : List (HloOp τ sig (Elt F))).Forall fun op => op.fresh = ∅ := by
  simp only [List.Forall]; repeat' constructor
theorem pre15_writes : (pre15 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of @main, in program order. -/
abbrev mid0 : List (HloOp τ sig (Elt F)) :=
  [ StableHlo.binary main_v85 main_v86 main_v87 ((fun l r => Host.dotGeneral dot_S32x768x1024_S32x1024x1024_S32x768x1024_2_2_1_1_0_0 none l r) : (⟨S32x768x1024, .f32⟩ : BufTy).Contents (Elt F) → (⟨S32x1024x1024, .f32⟩ : BufTy).Contents (Elt F) → (⟨S32x768x1024, .f32⟩ : BufTy).Contents (Elt F)),
    StableHlo.unary main_v87 main_v88 ((extractStridedSlice S32x768x512 ![0, 0, 0] · slices_S32x768x1024_S32x768x512_0_0_0) : (⟨S32x768x1024, .f32⟩ : BufTy).Contents (Elt F) → (⟨S32x768x512, .f32⟩ : BufTy).Contents (Elt F)),
    StableHlo.unary main_v87 main_v89 ((extractStridedSlice S32x768x512 ![0, 0, 512] · slices_S32x768x1024_S32x768x512_0_0_512) : (⟨S32x768x1024, .f32⟩ : BufTy).Contents (Elt F) → (⟨S32x768x512, .f32⟩ : BufTy).Contents (Elt F)) ]
theorem mid0_sub : (mid0 : List (HloOp τ sig (Elt F))).Forall fun op => op.bufs ⊆ tcRefs τ sig :=
  ⟨binary_bufs_sub .., unary_bufs_sub .., unary_bufs_sub ..⟩
theorem mid0_fresh : (mid0 : List (HloOp τ sig (Elt F))).Forall fun op => op.fresh = ∅ := by
  simp only [List.Forall]; repeat' constructor
theorem mid0_writes : (mid0 : List (HloOp τ sig (Elt F))).Forall fun op => op.writes ⊆ (written.map (Proc.devRef (τ := τ) .tc)).toFinset :=
  ⟨writes_sub rfl (by decide), writes_sub rfl (by decide), writes_sub rfl (by decide)⟩

/-- 9 operations of fn_silu over main_call7, in program order. -/
abbrev mid1 : List (HloOp τ sig (Elt F)) :=
  [ StableHlo.TRef.unary (.of main_v88 : StableHlo.TRef sig ⟨S32x768x512, .f32⟩) (.of main_call7_v0 : StableHlo.TRef sig ⟨S32x768x512, .f32⟩) Host.negf,
    StableHlo.TRef.unary (.of main_call7_v0 : StableHlo.TRef sig ⟨S32x768x512, .f32⟩) (.of main_call7_v1 : StableHlo.TRef sig ⟨S32x768x512, .f32⟩) Host.exp,
    StableHlo.TRef.nullary (.of main_call7_cst : StableHlo.TRef sig ⟨S_, .f32⟩) (constant S_ .f32 0x3F800000#32),
    StableHlo.TRef.unary (.of main_call7_cst : StableHlo.TRef sig ⟨S_, .f32⟩) (.of main_call7_v2 : StableHlo.TRef sig ⟨S32x768x512, .f32⟩) (broadcastInDim S32x768x512 ![] bcast_S_S32x768x512),
    StableHlo.TRef.binary (.of main_call7_v2 : StableHlo.TRef sig ⟨S32x768x512, .f32⟩) (.of main_call7_v1 : StableHlo.TRef sig ⟨S32x768x512, .f32⟩) (.of main_call7_v3 : StableHlo.TRef sig ⟨S32x768x512, .f32⟩) addf,
    StableHlo.TRef.nullary (.of main_call7_cst_0 : StableHlo.TRef sig ⟨S_, .f32⟩) (constant S_ .f32 0x3F800000#32),
    StableHlo.TRef.unary (.of main_call7_cst_0 : StableHlo.TRef sig ⟨S_, .f32⟩) (.of main_call7_v4 : StableHlo.TRef sig ⟨S32x768x512, .f32⟩) (broadcastInDim S32x768x512 ![] bcast_S_S32x768x512),
    StableHlo.TRef.binary (.of main_call7_v4 : StableHlo.TRef sig ⟨S32x768x512, .f32⟩) (.of main_call7_v3 : StableHlo.TRef sig ⟨S32x768x512, .f32⟩) (.of main_call7_v5 : StableHlo.TRef sig ⟨S32x768x512, .f32⟩) Host.divf,
    StableHlo.TRef.binary (.of main_v88 : StableHlo.TRef sig ⟨S32x768x512, .f32⟩) (.of main_call7_v5 : StableHlo.TRef sig ⟨S32x768x512, .f32⟩) (.of main_v90 : StableHlo.TRef sig ⟨S32x768x512, .f32⟩) mulf ]
theorem mid1_sub : (mid1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem mid1_fresh : (mid1 : List (HloOp τ sig (Elt F))).Forall fun op => op.fresh = ∅ := by
  simp only [List.Forall]; repeat' constructor
theorem mid1_writes : (mid1 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 1 operation of @main, in program order. -/
abbrev mid2 : List (HloOp τ sig (Elt F)) :=
  [ StableHlo.binary main_v90 main_v89 main_v91 (mulf : (⟨S32x768x512, .f32⟩ : BufTy).Contents (Elt F) → (⟨S32x768x512, .f32⟩ : BufTy).Contents (Elt F) → (⟨S32x768x512, .f32⟩ : BufTy).Contents (Elt F)) ]
theorem mid2_sub : (mid2 : List (HloOp τ sig (Elt F))).Forall fun op => op.bufs ⊆ tcRefs τ sig :=
  binary_bufs_sub ..
theorem mid2_fresh : (mid2 : List (HloOp τ sig (Elt F))).Forall fun op => op.fresh = ∅ := by
  simp only [List.Forall]; repeat' constructor
theorem mid2_writes : (mid2 : List (HloOp τ sig (Elt F))).Forall fun op => op.writes ⊆ (written.map (Proc.devRef (τ := τ) .tc)).toFinset :=
  writes_sub rfl (by decide)

/-- 1 operation of @main, in program order. -/
abbrev mid3 : List (HloOp τ sig (Elt F)) :=
  [ StableHlo.binary main_v91 main_arg4 main_v92 ((fun l r => Host.dotGeneral dot_S32x768x512_S32x1024x512_S32x768x1024_2_2_1_1_0_0 none l r) : (⟨S32x768x512, .f32⟩ : BufTy).Contents (Elt F) → (⟨S32x1024x512, .f32⟩ : BufTy).Contents (Elt F) → (⟨S32x768x1024, .f32⟩ : BufTy).Contents (Elt F)) ]
theorem mid3_sub : (mid3 : List (HloOp τ sig (Elt F))).Forall fun op => op.bufs ⊆ tcRefs τ sig :=
  binary_bufs_sub ..
theorem mid3_fresh : (mid3 : List (HloOp τ sig (Elt F))).Forall fun op => op.fresh = ∅ := by
  simp only [List.Forall]; repeat' constructor
theorem mid3_writes : (mid3 : List (HloOp τ sig (Elt F))).Forall fun op => op.writes ⊆ (written.map (Proc.devRef (τ := τ) .tc)).toFinset :=
  writes_sub rfl (by decide)

/-- 19 operations of @main, in program order. -/
abbrev tail0 : List (HloOp τ sig (Elt F)) :=
  [ StableHlo.nullary main_c_26 (constantI S_ 32 0#32),
    StableHlo.unary main_c_26 main_v93 (broadcastInDim S16384 ![] bcast_S_S16384 : (⟨S_, .i32⟩ : BufTy).Contents (Elt F) → (⟨S16384, .i32⟩ : BufTy).Contents (Elt F)),
    StableHlo.binary main_v60 main_v93 main_v94 (cmpi .slt : (⟨S16384, .i32⟩ : BufTy).Contents (Elt F) → (⟨S16384, .i32⟩ : BufTy).Contents (Elt F) → (⟨S16384, .i1⟩ : BufTy).Contents (Elt F)),
    StableHlo.nullary main_c_27 (constantI S_ 32 32#32),
    StableHlo.unary main_c_27 main_v95 (broadcastInDim S16384 ![] bcast_S_S16384 : (⟨S_, .i32⟩ : BufTy).Contents (Elt F) → (⟨S16384, .i32⟩ : BufTy).Contents (Elt F)),
    StableHlo.binary main_v60 main_v95 main_v96 (addi : (⟨S16384, .i32⟩ : BufTy).Contents (Elt F) → (⟨S16384, .i32⟩ : BufTy).Contents (Elt F) → (⟨S16384, .i32⟩ : BufTy).Contents (Elt F)),
    StableHlo.ternary main_v94 main_v96 main_v60 main_v97 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_28 (constantI S_ 32 0#32),
    StableHlo.unary main_c_28 main_v98 (broadcastInDim S16384 ![] bcast_S_S16384 : (⟨S_, .i32⟩ : BufTy).Contents (Elt F) → (⟨S16384, .i32⟩ : BufTy).Contents (Elt F)),
    StableHlo.binary main_v61 main_v98 main_v99 (cmpi .slt : (⟨S16384, .i32⟩ : BufTy).Contents (Elt F) → (⟨S16384, .i32⟩ : BufTy).Contents (Elt F) → (⟨S16384, .i1⟩ : BufTy).Contents (Elt F)),
    StableHlo.nullary main_c_29 (constantI S_ 32 768#32),
    StableHlo.unary main_c_29 main_v100 (broadcastInDim S16384 ![] bcast_S_S16384 : (⟨S_, .i32⟩ : BufTy).Contents (Elt F) → (⟨S16384, .i32⟩ : BufTy).Contents (Elt F)),
    StableHlo.binary main_v61 main_v100 main_v101 (addi : (⟨S16384, .i32⟩ : BufTy).Contents (Elt F) → (⟨S16384, .i32⟩ : BufTy).Contents (Elt F) → (⟨S16384, .i32⟩ : BufTy).Contents (Elt F)),
    StableHlo.ternary main_v99 main_v101 main_v61 main_v102 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v97 main_v103 (broadcastInDim S16384x1 ![0] bcast_S16384_S16384x1_0 : (⟨S16384, .i32⟩ : BufTy).Contents (Elt F) → (⟨S16384x1, .i32⟩ : BufTy).Contents (Elt F)),
    StableHlo.unary main_v102 main_v104 (broadcastInDim S16384x1 ![0] bcast_S16384_S16384x1_0 : (⟨S16384, .i32⟩ : BufTy).Contents (Elt F) → (⟨S16384x1, .i32⟩ : BufTy).Contents (Elt F)),
    StableHlo.binary main_v103 main_v104 main_v105 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v92 main_v105 main_v106 ((fun x i => Host.gather gather_S32x768x1024_S16384x2_S16384x1024_1_01_n_n_01_1_111024 x i) : (⟨S32x768x1024, .f32⟩ : BufTy).Contents (Elt F) → (⟨S16384x2, .i32⟩ : BufTy).Contents (Elt F) → (⟨S16384x1024, .f32⟩ : BufTy).Contents (Elt F)),
    StableHlo.nullary main_cst_30 (constant S_ .f32 0x00000000#32) ]
theorem tail0_sub : (tail0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub ..⟩
theorem tail0_fresh : (tail0 : List (HloOp τ sig (Elt F))).Forall fun op => op.fresh = ∅ := by
  simp only [List.Forall]; repeat' constructor
theorem tail0_writes : (tail0 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- 3 operations of fn_where_3 over main_call8, in program order. -/
abbrev tail1 : List (HloOp τ sig (Elt F)) :=
  [ StableHlo.TRef.unary (.of main_cst_30 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S16384, .f32⟩) (broadcastInDim S16384 ![] bcast_S_S16384),
    StableHlo.TRef.ternary (.of main_v59 : StableHlo.TRef sig ⟨S16384, .i1⟩) (.of main_v33 : StableHlo.TRef sig ⟨S16384, .f32⟩) (.of main_call8_v1 : StableHlo.TRef sig ⟨S16384, .f32⟩) (.of main_v107 : StableHlo.TRef sig ⟨S16384, .f32⟩) select ]
theorem tail1_sub : (tail1 : List (HloOp τ sig (Elt F))).Forall fun op => op.bufs ⊆ tcRefs τ sig :=
  ⟨unary_bufs_sub .., unary_bufs_sub .., ternary_bufs_sub ..⟩
theorem tail1_fresh : (tail1 : List (HloOp τ sig (Elt F))).Forall fun op => op.fresh = ∅ := by
  simp only [List.Forall]; repeat' constructor
theorem tail1_writes : (tail1 : List (HloOp τ sig (Elt F))).Forall fun op => op.writes ⊆ (written.map (Proc.devRef (τ := τ) .tc)).toFinset :=
  ⟨writes_sub rfl (by decide), writes_sub rfl (by decide), writes_sub rfl (by decide)⟩

/-- 12 operations of @main, in program order. -/
abbrev tail2 : List (HloOp τ sig (Elt F)) :=
  [ StableHlo.unary main_v107 main_v108 (broadcastInDim S16384x1 ![0] bcast_S16384_S16384x1_0 : (⟨S16384, .f32⟩ : BufTy).Contents (Elt F) → (⟨S16384x1, .f32⟩ : BufTy).Contents (Elt F)),
    StableHlo.unary main_v108 main_v109 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v106 main_v109 main_v110 (mulf : (⟨S16384x1024, .f32⟩ : BufTy).Contents (Elt F) → (⟨S16384x1024, .f32⟩ : BufTy).Contents (Elt F) → (⟨S16384x1024, .f32⟩ : BufTy).Contents (Elt F)),
    StableHlo.nullary main_c_31 (constantI S_ 32 0#32),
    StableHlo.unary main_c_31 main_v111 (broadcastInDim S16384 ![] bcast_S_S16384 : (⟨S_, .i32⟩ : BufTy).Contents (Elt F) → (⟨S16384, .i32⟩ : BufTy).Contents (Elt F)),
    StableHlo.binary main_v26 main_v111 main_v112 (cmpi .slt : (⟨S16384, .i32⟩ : BufTy).Contents (Elt F) → (⟨S16384, .i32⟩ : BufTy).Contents (Elt F) → (⟨S16384, .i1⟩ : BufTy).Contents (Elt F)),
    StableHlo.nullary main_c_32 (constantI S_ 32 4096#32),
    StableHlo.unary main_c_32 main_v113 (broadcastInDim S16384 ![] bcast_S_S16384 : (⟨S_, .i32⟩ : BufTy).Contents (Elt F) → (⟨S16384, .i32⟩ : BufTy).Contents (Elt F)),
    StableHlo.binary main_v26 main_v113 main_v114 (addi : (⟨S16384, .i32⟩ : BufTy).Contents (Elt F) → (⟨S16384, .i32⟩ : BufTy).Contents (Elt F) → (⟨S16384, .i32⟩ : BufTy).Contents (Elt F)),
    StableHlo.ternary main_v112 main_v114 main_v26 main_v115 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v115 main_v116 (broadcastInDim S16384x1 ![0] bcast_S16384_S16384x1_0 : (⟨S16384, .i32⟩ : BufTy).Contents (Elt F) → (⟨S16384x1, .i32⟩ : BufTy).Contents (Elt F)),
    StableHlo.ternary main_v11 main_v116 main_v110 main_v117 ((fun x i u => Host.scatterAdd scatter_S4096x1024_S16384x1_S16384x1024_1_0_0_1 x i u) : (⟨S4096x1024, .f32⟩ : BufTy).Contents (Elt F) → (⟨S16384x1, .i32⟩ : BufTy).Contents (Elt F) → (⟨S16384x1024, .f32⟩ : BufTy).Contents (Elt F) → (⟨S4096x1024, .f32⟩ : BufTy).Contents (Elt F)) ]
theorem tail2_sub : (tail2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem tail2_fresh : (tail2 : List (HloOp τ sig (Elt F))).Forall fun op => op.fresh = ∅ := by
  simp only [List.Forall]; repeat' constructor
theorem tail2_writes : (tail2 : List (HloOp τ sig (Elt F))).Forall fun op => op.writes ⊆ (written.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- @main's statements from %0 through %86 (the slice of the first weight, main_v86), callees inlined, in program order. -/
abbrev opsPre : List (HloOp τ sig (Elt F)) := pre0 ++ (pre1 ++ (pre2 ++ (pre3 ++ (pre4 ++ (pre5 ++ (pre6 ++ (pre7 ++ (pre8 ++ (pre9 ++ (pre10 ++ (pre11 ++ (pre12 ++ (pre13 ++ (pre14 ++ pre15))))))))))))))
/-- %87 (the first dot_general, main_v87) through %92 (the second dot_general, main_v92): the dot_general, two slices,
    the nine operations of silu over main_call7, the multiply, the dot_general. -/
abbrev opsMid : List (HloOp τ sig (Elt F)) := mid0 ++ (mid1 ++ (mid2 ++ mid3))
/-- Everything after %92: %c_26 … %117 (main_v117, the final scatter-add), the three operations of the last select
    over main_call8 among them. -/
abbrev opsTail : List (HloOp τ sig (Elt F)) := tail0 ++ (tail1 ++ tail2)
/-- @main's operations, in program order. -/
abbrev ops : List (HloOp τ sig (Elt F)) := opsPre ++ (opsMid ++ opsTail)

/-! ## @main is that straight line

Each window is, by unfolding alone, its stretches run one after the other (a window that is not the last ends in its
last statement, which is the last stretch's last operation followed by the return of the unit value). -/

theorem main_part0_eq (c : Dev nD) : main_part0 (F := F) c = (seq pre0 >>= fun _ => seq pre1 >>= fun _ => seq pre2 >>= fun _ => seq pre3 >>= fun _ => seq pre4 >>= fun _ => seq pre5 >>= fun _ => seq pre6 >>= fun _ => seq pre7 >>= fun _ => seq pre8) := by
  chain_rfl
theorem main_part1_eq (c : Dev nD) : main_part1 (F := F) c = (seq pre9 >>= fun _ => seq pre10 >>= fun _ => seq pre11 >>= fun _ => seq pre12 >>= fun _ => seq pre13 >>= fun _ => seq pre14 >>= fun _ => seq pre15 >>= fun _ => seq mid0 >>= fun _ => seq mid1 >>= fun _ => seq mid2) := by
  chain_rfl
theorem main_part2_eq (c : Dev nD) : main_part2 (F := F) c = (seq mid3 >>= fun _ => seq tail0 >>= fun _ => seq tail1 >>= fun _ => seq tail2) := by
  chain_rfl

theorem main_eq (c : Dev nD) : main (F := F) c = seq ops := by
  show (main_part0 (F := F) c >>= fun _ => main_part1 (F := F) c >>= fun _ => main_part2 (F := F) c) = _
  rw [main_part0_eq, main_part1_eq, main_part2_eq]
  simp only [ops, opsPre, opsMid, opsTail, seq_append, bind_assoc]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append pre0_sub (forall_append pre1_sub (forall_append pre2_sub (forall_append pre3_sub (forall_append pre4_sub (forall_append pre5_sub (forall_append pre6_sub (forall_append pre7_sub (forall_append pre8_sub (forall_append pre9_sub (forall_append pre10_sub (forall_append pre11_sub (forall_append pre12_sub (forall_append pre13_sub (forall_append pre14_sub (pre15_sub)))))))))))))))) (forall_append (forall_append mid0_sub (forall_append mid1_sub (forall_append mid2_sub (mid3_sub)))) (forall_append tail0_sub (forall_append tail1_sub (tail2_sub))))
theorem ops_fresh : (ops : List (HloOp τ sig (Elt F))).Forall fun op => op.fresh = ∅ :=
  forall_append (forall_append pre0_fresh (forall_append pre1_fresh (forall_append pre2_fresh (forall_append pre3_fresh (forall_append pre4_fresh (forall_append pre5_fresh (forall_append pre6_fresh (forall_append pre7_fresh (forall_append pre8_fresh (forall_append pre9_fresh (forall_append pre10_fresh (forall_append pre11_fresh (forall_append pre12_fresh (forall_append pre13_fresh (forall_append pre14_fresh (pre15_fresh)))))))))))))))) (forall_append (forall_append mid0_fresh (forall_append mid1_fresh (forall_append mid2_fresh (mid3_fresh)))) (forall_append tail0_fresh (forall_append tail1_fresh (tail2_fresh))))
theorem ops_writes : (ops : List (HloOp τ sig (Elt F))).Forall fun op => op.writes ⊆ (written.map (Proc.devRef (τ := τ) .tc)).toFinset :=
  forall_append (forall_append pre0_writes (forall_append pre1_writes (forall_append pre2_writes (forall_append pre3_writes (forall_append pre4_writes (forall_append pre5_writes (forall_append pre6_writes (forall_append pre7_writes (forall_append pre8_writes (forall_append pre9_writes (forall_append pre10_writes (forall_append pre11_writes (forall_append pre12_writes (forall_append pre13_writes (forall_append pre14_writes (pre15_writes)))))))))))))))) (forall_append (forall_append mid0_writes (forall_append mid1_writes (forall_append mid2_writes (mid3_writes)))) (forall_append tail0_writes (forall_append tail1_writes (tail2_writes))))

/-- On every device, for any float values, from any memory with zero counters: every weakly fair execution of @main
    terminates, and every final state has each buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- A reference no operation writes keeps its contents through the whole line. -/
theorem after_of_not_written {r : Ref sig .tc} (hr : r ∉ written) (V : Valuation τ sig (Elt F)) :
    after ops V (Proc.devRef .tc r) = V (Proc.devRef .tc r) :=
  after_of_writes_sub ops V ops_writes hr

/-- no operation writes an argument buffer -/
theorem kept (V : Valuation τ sig (Elt F)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3)
    ∧ after ops V (Proc.devRef .tc main_arg4) = V (Proc.devRef .tc main_arg4) :=
  ⟨after_of_not_written (by decide) V, after_of_not_written (by decide) V, after_of_not_written (by decide) V,
    after_of_not_written (by decide) V, after_of_not_written (by decide) V⟩

end Cert.ReferenceIdeal.HostRun

end
-- ==== Proof.Runs.lean ====
/-
  The two programs' runs, with their results named.

  The idealized kernel program: its generated frame run leaves every buffer that is not one of the pipeline's arrays
  at what the host operations after the region compute from the region's exit contents; read at the result buffer and
  at the five arguments (which no host operation writes) this is the run the equivalence claim asks of it.
  The reference: a straight line of host operations, so every buffer ends at the fold of the operations over the
  launch contents, and no operation writes an argument.
-/
import proofs.«165575_j43954695308102_1_alg».proof.Defs
import proofs.«165575_j43954695308102_1_alg».proof.Proof.Gen.KernelIdeal.Frame
import proofs.«165575_j43954695308102_1_alg».proof.Proof.Gen.ReferenceIdeal
import proofs.«165575_j43954695308102_1_alg».proof.Proof.Gen.Pre_finite_inputs
import proofs.«165575_j43954695308102_1_alg».proof.Proof.RefRun

noncomputable section

namespace Cert.Runs

open Idealize.ShloMosaic Idealize.ShloMosaic.TcCoe Idealize.SL.Sem Idealize.ShloMosaic.StableHlo

/-- What the kernel program's result buffer holds after the run, on core `c`: the host operations after the region
    applied to the region's exit contents. -/
abbrev kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v115) :=
  Pipeline.afterTail₀ Cert.KernelIdeal.cfgs (Cert.KernelIdeal.Gen.dats (F := Ideal) m) 0 (Cert.KernelIdeal.Gen.V0 (F := Ideal) m)
    [Cert.KernelIdeal.Gen.hostOps1, Cert.KernelIdeal.Gen.hostOps1_1, Cert.KernelIdeal.Gen.hostOps1_2] c Cert.KernelIdeal.main_v115

open Cert.KernelIdeal Cert.KernelIdeal.Gen in
/-- The idealized kernel program runs, ends with its result at `kernelResult` and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v115) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v115 (Pipeline.mem_restRefs_of main_v115 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main (F := Ideal) m ρ)

open Cert.ReferenceIdeal Cert.ReferenceIdeal.HostRun in
/-- The reference runs, ends with every buffer at the fold of its operations and its arguments unchanged. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v117) = after (ops (F := Ideal)) (launchContents m c) (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      have k := kept (F := Ideal) (launchContents m c)
      ⟨h c main_v117, (h c main_arg0).trans k.1, (h c main_arg1).trans k.2.1, (h c main_arg2).trans k.2.2.1,
        (h c main_arg3).trans k.2.2.2.1, (h c main_arg4).trans k.2.2.2.2⟩)
    (run (F := Ideal) m ρ)

/-- The reference's frame: it runs and its arguments end unchanged. -/
theorem reference_frame : Cert.frame_ReferenceIdeal := fun m ρ _ =>
  (θ_run (Cert.ReferenceIdeal.defs (F := Ideal)) _ _).mono (fun _ h c => (h c).2) (reference_run m ρ)

end Cert.Runs

end
-- ==== Proof.Spec.lean ====
/-
  The mathematics both programs compute for the routed experts, stated once, on extended reals.

  For expert `e`, capacity slot `c` and output feature `h`:
    proj e c o   = Σ_k x[e,c,k] · g[e,o,k]                      (the gate/up projection, contraction over the hidden axis)
    hidden e c i = silu (proj e c i) · proj e c (i + 512)       (gate half through silu, times the up half)
    out e c h    = Σ_i hidden e c i · d[e,h,i]                  (the down projection, contraction over the intermediate axis)
  with silu a = a · logistic a = a · (1 / (1 + exp (-a))) at the conventions of the extended reals.
  Sums on the extended reals are commutative and associative, so no finiteness is needed for the two programs
  (one blocked by expert, one batched over experts) to agree on this function.
-/
import Idealize.ShloMosaic.PureOps.Ideal
import Idealize.ShloMosaic.Lib.ValueIdx

noncomputable section

namespace Cert.MoeSpec

open Idealize.ShloMosaic Idealize.ShloMosaic.ValueIdx

/-- The capacity buffer's shape: experts × slots × hidden features. -/
abbrev SX : Shape := ⟨3, ![32, 768, 1024]⟩
/-- The routed experts' gate/up weights: experts × (2 · intermediate) × hidden. -/
abbrev SG : Shape := ⟨3, ![32, 1024, 1024]⟩
/-- The down weights: experts × hidden × intermediate. -/
abbrev SD : Shape := ⟨3, ![32, 1024, 512]⟩

/-- `silu a = a · logistic a`. -/
def silu (a : EReal) : EReal := a * Ideal.logistic a

/-- Row `(e, c)` of the capacity buffer against row `(e, o)` of the gate/up weights. -/
def proj (x : SX.Idx → EReal) (g : SG.Idx → EReal) (e : Fin 32) (c : Fin 768) (o : Fin 1024) : EReal :=
  ∑ k : Fin 1024, x (ix3 e c k) * g (ix3 e o k)

/-- The gated hidden activation: the gate half (features `0 … 511`) through silu, times the up half (`512 … 1023`). -/
def hidden (x : SX.Idx → EReal) (g : SG.Idx → EReal) (e : Fin 32) (c : Fin 768) (i : Fin 512) : EReal :=
  silu (proj x g e c ⟨i.val, by omega⟩) * proj x g e c ⟨i.val + 512, by omega⟩

/-- One entry of the expert output: the hidden activation against row `(e, h)` of the down weights. -/
def outAt (x : SX.Idx → EReal) (g : SG.Idx → EReal) (d : SD.Idx → EReal) (e : Fin 32) (c : Fin 768) (h : Fin 1024) : EReal :=
  ∑ i : Fin 512, hidden x g e c i * d (ix3 e h i)

/-- The grouped gated MLP as one function of the whole arrays. -/
def expertMlp (x : SX.Idx → EReal) (g : SG.Idx → EReal) (d : SD.Idx → EReal) : SX.Idx → EReal :=
  fun j => outAt x g d (j 0) (j 1) (j 2)

theorem expertMlp_ix3 (x : SX.Idx → EReal) (g : SG.Idx → EReal) (d : SD.Idx → EReal) (e : Fin 32) (c : Fin 768) (h : Fin 1024) :
    expertMlp x g d (ix3 e c h) = outAt x g d e c h := rfl

end Cert.MoeSpec

end
-- ==== Proof.RefMid.lean ====
/-
  The reference's grouped gated MLP, read at an entry.

  On the host the routed experts are computed batched over the expert axis: a `dot_general` of the capacity
  buffer [32,768,1024] with the gate/up weights [32,1024,1024] (batch axis 0, contraction over the last axis of
  both), the two halves of its last axis sliced apart, `x · (1 / (1 + exp (-x)))` on the gate half times the up half,
  and a second `dot_general` with the down weights [32,1024,512]. At the ideal values a `dot_general` at an entry is
  the plain sum over its one contracted axis, and `1 / (1 + exp (-x))` is the logistic function, so the composite is
  `Cert.MoeSpec.expertMlp`, entry by entry.
-/
import proofs.«165575_j43954695308102_1_alg».proof.Proof.Gen.ReferenceIdeal
import proofs.«165575_j43954695308102_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.GroupedMlp

open Cert.ReferenceIdeal Idealize.ShloMosaic Idealize.ShloMosaic.ValueIdx Cert.MoeSpec
open Cert.ReferenceIdeal.Facts₀ Cert.ReferenceIdeal.Facts

/-- The gate/up projection's dimension numbers: batch axis 0, free axis 1 of each side, contraction over axis 2. -/
abbrev dUp : DotDims S32x768x1024 S32x1024x1024 S32x768x1024 := dot_S32x768x1024_S32x1024x1024_S32x768x1024_2_2_1_1_0_0
/-- The down projection's dimension numbers: the same pattern, contraction over the intermediate axis. -/
abbrev dDown : DotDims S32x768x512 S32x1024x512 S32x768x1024 := dot_S32x768x512_S32x1024x512_S32x768x1024_2_2_1_1_0_0

/-! ## Which operand entry each side of a product reads -/

theorem up_lhs_0 (i : S32x768x1024.Idx) (q : dUp.contr.Idx) : (dUp.lhsIdx i q 0).val = (i 0).val := by
  unfold DotDims.lhsIdx
  rw [dif_pos (show (0 : Fin S32x768x1024.rank) ∈ dUp.lhsBatch by decide)]
  rfl
theorem up_lhs_1 (i : S32x768x1024.Idx) (q : dUp.contr.Idx) : (dUp.lhsIdx i q 1).val = (i 1).val := by
  unfold DotDims.lhsIdx
  rw [dif_neg (show ¬(1 : Fin S32x768x1024.rank) ∈ dUp.lhsBatch by decide), dif_pos (show (1 : Fin S32x768x1024.rank) ∈ dUp.lhsNonContracting by decide)]
  rfl
theorem up_lhs_2 (i : S32x768x1024.Idx) (q : dUp.contr.Idx) : (dUp.lhsIdx i q 2).val = (q ⟨0, by decide⟩).val :=
  dUp.lhsIdx_val_of_single rfl i q
theorem up_rhs_0 (i : S32x768x1024.Idx) (q : dUp.contr.Idx) : (dUp.rhsIdx i q 0).val = (i 0).val := by
  unfold DotDims.rhsIdx
  rw [dif_pos (show (0 : Fin S32x1024x1024.rank) ∈ dUp.rhsBatch by decide)]
  rfl
theorem up_rhs_1 (i : S32x768x1024.Idx) (q : dUp.contr.Idx) : (dUp.rhsIdx i q 1).val = (i 2).val := by
  unfold DotDims.rhsIdx
  rw [dif_neg (show ¬(1 : Fin S32x1024x1024.rank) ∈ dUp.rhsBatch by decide), dif_pos (show (1 : Fin S32x1024x1024.rank) ∈ dUp.rhsNonContracting by decide)]
  rfl
theorem up_rhs_2 (i : S32x768x1024.Idx) (q : dUp.contr.Idx) : (dUp.rhsIdx i q 2).val = (q ⟨0, by decide⟩).val :=
  dUp.rhsIdx_val_of_single rfl i q

theorem down_lhs_0 (i : S32x768x1024.Idx) (q : dDown.contr.Idx) : (dDown.lhsIdx i q 0).val = (i 0).val := by
  unfold DotDims.lhsIdx
  rw [dif_pos (show (0 : Fin S32x768x512.rank) ∈ dDown.lhsBatch by decide)]
  rfl
theorem down_lhs_1 (i : S32x768x1024.Idx) (q : dDown.contr.Idx) : (dDown.lhsIdx i q 1).val = (i 1).val := by
  unfold DotDims.lhsIdx
  rw [dif_neg (show ¬(1 : Fin S32x768x512.rank) ∈ dDown.lhsBatch by decide), dif_pos (show (1 : Fin S32x768x512.rank) ∈ dDown.lhsNonContracting by decide)]
  rfl
theorem down_lhs_2 (i : S32x768x1024.Idx) (q : dDown.contr.Idx) : (dDown.lhsIdx i q 2).val = (q ⟨0, by decide⟩).val :=
  dDown.lhsIdx_val_of_single rfl i q
theorem down_rhs_0 (i : S32x768x1024.Idx) (q : dDown.contr.Idx) : (dDown.rhsIdx i q 0).val = (i 0).val := by
  unfold DotDims.rhsIdx
  rw [dif_pos (show (0 : Fin S32x1024x512.rank) ∈ dDown.rhsBatch by decide)]
  rfl
theorem down_rhs_1 (i : S32x768x1024.Idx) (q : dDown.contr.Idx) : (dDown.rhsIdx i q 1).val = (i 2).val := by
  unfold DotDims.rhsIdx
  rw [dif_neg (show ¬(1 : Fin S32x1024x512.rank) ∈ dDown.rhsBatch by decide), dif_pos (show (1 : Fin S32x1024x512.rank) ∈ dDown.rhsNonContracting by decide)]
  rfl
theorem down_rhs_2 (i : S32x768x1024.Idx) (q : dDown.contr.Idx) : (dDown.rhsIdx i q 2).val = (q ⟨0, by decide⟩).val :=
  dDown.rhsIdx_val_of_single rfl i q

/-! ## The two batched products at an entry -/

/-- Entry `(e, c, o)` of the gate/up projection is row `(e, c)` of the capacity buffer against row `(e, o)` of the weights. -/
theorem up_apply (X : FVec Ideal S32x768x1024 .f32) (G : FVec Ideal S32x1024x1024 .f32) (e : Fin 32) (c : Fin 768) (o : Fin 1024) :
    Host.dotGeneral (F := Ideal) dUp none X G (ix3 e c o) = proj X G e c o := by
  simp only [Host.dotGeneral]
  rw [Ideal.dotGeneral_apply, ← Equiv.sum_comp (contrEquiv1 dUp 1024 rfl rfl).symm]
  unfold proj
  refine Finset.sum_congr rfl fun k _ => ?_
  have hk := contrEquiv1_symm_val dUp 1024 rfl rfl k
  have el : dUp.lhsIdx (ix3 e c o) ((contrEquiv1 dUp 1024 rfl rfl).symm k) = ix3 e c k := funext fun a => Fin.ext (by
    match a with
    | ⟨0, _⟩ => exact up_lhs_0 _ _
    | ⟨1, _⟩ => exact up_lhs_1 _ _
    | ⟨2, _⟩ => exact (up_lhs_2 _ _).trans hk)
  have er : dUp.rhsIdx (ix3 e c o) ((contrEquiv1 dUp 1024 rfl rfl).symm k) = ix3 e o k := funext fun a => Fin.ext (by
    match a with
    | ⟨0, _⟩ => exact up_rhs_0 _ _
    | ⟨1, _⟩ => exact up_rhs_1 _ _
    | ⟨2, _⟩ => exact (up_rhs_2 _ _).trans hk)
  rw [el, er]

/-- Entry `(e, c, h)` of the down projection is row `(e, c)` of the hidden activations against row `(e, h)` of the weights. -/
theorem down_apply (M : FVec Ideal S32x768x512 .f32) (D : FVec Ideal S32x1024x512 .f32) (e : Fin 32) (c : Fin 768) (h : Fin 1024) :
    Host.dotGeneral (F := Ideal) dDown none M D (ix3 e c h) = ∑ i : Fin 512, M (ix3 e c i) * D (ix3 e h i) := by
  simp only [Host.dotGeneral]
  rw [Ideal.dotGeneral_apply, ← Equiv.sum_comp (contrEquiv1 dDown 512 rfl rfl).symm]
  refine Finset.sum_congr rfl fun k _ => ?_
  have hk := contrEquiv1_symm_val dDown 512 rfl rfl k
  have el : dDown.lhsIdx (ix3 e c h) ((contrEquiv1 dDown 512 rfl rfl).symm k) = ix3 e c k := funext fun a => Fin.ext (by
    match a with
    | ⟨0, _⟩ => exact down_lhs_0 _ _
    | ⟨1, _⟩ => exact down_lhs_1 _ _
    | ⟨2, _⟩ => exact (down_lhs_2 _ _).trans hk)
  have er : dDown.rhsIdx (ix3 e c h) ((contrEquiv1 dDown 512 rfl rfl).symm k) = ix3 e h k := funext fun a => Fin.ext (by
    match a with
    | ⟨0, _⟩ => exact down_rhs_0 _ _
    | ⟨1, _⟩ => exact down_rhs_1 _ _
    | ⟨2, _⟩ => exact (down_rhs_2 _ _).trans hk)
  rw [el, er]

/-! ## The halves of the projection -/

/-- The gate half: features `0 … 511` of the projection. -/
theorem gate_apply (P : FVec Ideal S32x768x1024 .f32) (e : Fin 32) (c : Fin 768) (i : Fin 512) :
    extractStridedSlice S32x768x512 ![0, 0, 0] P slices_S32x768x1024_S32x768x512_0_0_0 (ix3 e c i) = P (ix3 e c ⟨i.val, by omega⟩) :=
  extractStridedSlice_apply _ P _ _ (ix3 e c ⟨i.val, by omega⟩) fun a => by
    match a with
    | ⟨0, _⟩ => exact (Nat.zero_add _).symm
    | ⟨1, _⟩ => exact (Nat.zero_add _).symm
    | ⟨2, _⟩ => exact (Nat.zero_add _).symm

/-- The up half: features `512 … 1023`. -/
theorem upHalf_apply (P : FVec Ideal S32x768x1024 .f32) (e : Fin 32) (c : Fin 768) (i : Fin 512) :
    extractStridedSlice S32x768x512 ![0, 0, 512] P slices_S32x768x1024_S32x768x512_0_0_512 (ix3 e c i) = P (ix3 e c ⟨i.val + 512, by omega⟩) :=
  extractStridedSlice_apply _ P _ _ (ix3 e c ⟨i.val + 512, by omega⟩) fun a => by
    match a with
    | ⟨0, _⟩ => exact (Nat.zero_add _).symm
    | ⟨1, _⟩ => exact (Nat.zero_add _).symm
    | ⟨2, _⟩ => exact Nat.add_comm _ _

/-! ## The whole stretch -/

/-- The host's stretch from the capacity buffer to the expert outputs, as one term of its three operands. -/
def hostMlp (X : FVec Ideal S32x768x1024 .f32) (G : FVec Ideal S32x1024x1024 .f32) (D : FVec Ideal S32x1024x512 .f32) :
    FVec Ideal S32x768x1024 .f32 :=
  let P := Host.dotGeneral (F := Ideal) dUp none X G
  let gate := extractStridedSlice S32x768x512 ![0, 0, 0] P slices_S32x768x1024_S32x768x512_0_0_0
  let up := extractStridedSlice S32x768x512 ![0, 0, 512] P slices_S32x768x1024_S32x768x512_0_0_512
  let one := broadcastInDim S32x768x512 ![] bcast_S_S32x768x512 (constant (F := Ideal) S_ .f32 0x3F800000#32)
  Host.dotGeneral (F := Ideal) dDown none
    (mulf (mulf gate (Host.divf (F := Ideal) one (addf one (Host.exp (F := Ideal) (Host.negf (F := Ideal) gate))))) up) D

/-- On one extended real, the host's spelling `a · (1 / (1 + exp (-a)))` with `one = 1` is `silu a`. -/
theorem silu_host (a one : EReal) (h : one = 1) :
    a * FloatOps.hostDivf (F := Ideal) (φ := .f32) one (FloatOps.addf (F := Ideal) (φ := .f32) one
      (FloatOps.hostUnary (F := Ideal) (φ := .f32) .exp (FloatOps.hostNegf (F := Ideal) (φ := .f32) a))) = silu a := by
  subst h
  rfl

/-- The broadcast one reads one everywhere. -/
theorem one_apply (j : S32x768x512.Idx) :
    broadcastInDim S32x768x512 ![] bcast_S_S32x768x512 (constant (F := Ideal) S_ .f32 0x3F800000#32) j = 1 := by
  rw [broadcastInDim_scalar_apply, constant_apply, Ideal.ofBits_one_f32]

/-- One entry of the host's stretch is one entry of the grouped gated MLP. -/
theorem hostMlp_ix3 (X : FVec Ideal S32x768x1024 .f32) (G : FVec Ideal S32x1024x1024 .f32) (D : FVec Ideal S32x1024x512 .f32)
    (e : Fin 32) (c : Fin 768) (h : Fin 1024) : hostMlp X G D (ix3 e c h) = outAt X G D e c h := by
  unfold hostMlp outAt
  dsimp only
  refine (down_apply _ D e c h).trans ?_
  refine Finset.sum_congr rfl fun i _ => ?_
  refine congrArg (· * D (ix3 e h i)) ?_
  unfold Cert.MoeSpec.hidden
  refine congrArg₂ (· * ·) ?_ ?_
  · refine (silu_host _ _ (one_apply (ix3 e c i))).trans ?_
    exact congrArg silu ((gate_apply _ e c i).trans (up_apply X G e c _))
  · exact (upHalf_apply _ e c i).trans (up_apply X G e c _)

/-- Entry by entry the host's stretch is the grouped gated MLP. -/
theorem hostMlp_eq (X : FVec Ideal S32x768x1024 .f32) (G : FVec Ideal S32x1024x1024 .f32) (D : FVec Ideal S32x1024x512 .f32) :
    hostMlp X G D = expertMlp X G D := by
  funext j
  obtain ⟨e, c, h, rfl⟩ : ∃ (e : Fin 32) (c : Fin 768) (h : Fin 1024), j = ix3 e c h := ⟨j 0, j 1, j 2, eq_ix3 j⟩
  exact (hostMlp_ix3 X G D e c h).trans (expertMlp_ix3 X G D e c h).symm

end Cert.ReferenceIdeal.GroupedMlp

end
-- ==== Proof.KernelBlock.lean ====
/-
  One block of the grouped gated MLP, read at an index.

  At one expert the body sees three blocks with a leading unit axis: the slots x[1,768,1024], the gate/up weights
  g[1,1024,1024] and the down weights d[1,1024,512]. What it stores at (0, c, h) is
      Σ_i ( silu (Σ_k x[0,c,k] · g[0,i,k]) · (Σ_k x[0,c,k] · g[0,i+512,k]) ) · d[0,h,i] :
  the unit axis is dropped and put back by row-major position, each product contracts the LAST axis of both operands,
  the two halves of the first product are its columns 0 … 511 and 512 … 1023, and the rounding to the narrow format
  between the products is the identity on extended reals.
-/
import proofs.«165575_j43954695308102_1_alg».proof.Proof.Spec
import proofs.«165575_j43954695308102_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ExpertBlock

open Cert.KernelIdeal Cert.KernelIdeal.Gen Idealize.ShloMosaic Idealize.ShloMosaic.ValueIdx Cert.MoeSpec

/-! ## The leading unit axis -/

/-- Dropping a leading unit axis: position (a, b) of the [A, B] view is position (0, a, b) of the [1, A, B] block. -/
theorem dropUnit_apply {α : Type} {A B : Nat} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h (ix2 a b) (ix3 (0 : Fin 1) a b) ?_
  rw [Shape.rowMajor_val_three, Shape.rowMajor_val_two]
  show (0 * A + a.val) * B + b.val = a.val * B + b.val
  rw [Nat.zero_mul, Nat.zero_add]

/-- Adding it back: position (0, a, b) of the [1, A, B] block is position (a, b) of the [A, B] value. -/
theorem addUnit_apply {α : Type} {A B : Nat} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h (ix3 (0 : Fin 1) a b) (ix2 a b) ?_
  rw [Shape.rowMajor_val_three, Shape.rowMajor_val_two]
  show a.val * B + b.val = (0 * A + a.val) * B + b.val
  rw [Nat.zero_mul, Nat.zero_add]

/-! ## The two products: each contracts the last axis of both operands -/

/-- Slots [768, 1024] against gate/up rows [1024, 1024], contracting the hidden axis. -/
abbrev DG : DotDims S768x1024 S1024x1024 S768x1024 := dot_S768x1024_S1024x1024_S768x1024_1_1_0_0_n_n
/-- Hidden activations [768, 512] against down rows [1024, 512], contracting the intermediate axis. -/
abbrev DD : DotDims S768x512 S1024x512 S768x1024 := dot_S768x512_S1024x512_S768x1024_1_1_0_0_n_n

theorem lhsG_0 (j : S768x1024.Idx) (q : DG.contr.Idx) : (DG.lhsIdx j q 0).val = (j 0).val := by
  unfold DotDims.lhsIdx
  rw [dif_neg (show ¬(0 : Fin S768x1024.rank) ∈ DG.lhsBatch by decide),
    dif_pos (show (0 : Fin S768x1024.rank) ∈ DG.lhsNonContracting by decide)]
  rfl
theorem lhsG_1 (j : S768x1024.Idx) (q : DG.contr.Idx) : (DG.lhsIdx j q 1).val = (q ⟨0, by decide⟩).val :=
  DG.lhsIdx_val_of_single rfl j q
theorem rhsG_0 (j : S768x1024.Idx) (q : DG.contr.Idx) : (DG.rhsIdx j q 0).val = (j 1).val := by
  unfold DotDims.rhsIdx
  rw [dif_neg (show ¬(0 : Fin S1024x1024.rank) ∈ DG.rhsBatch by decide),
    dif_pos (show (0 : Fin S1024x1024.rank) ∈ DG.rhsNonContracting by decide)]
  rfl
theorem rhsG_1 (j : S768x1024.Idx) (q : DG.contr.Idx) : (DG.rhsIdx j q 1).val = (q ⟨0, by decide⟩).val :=
  DG.rhsIdx_val_of_single rfl j q

/-- The gate/up product at (c, o): row c of the slots against row o of the weights. -/
theorem gateUp_apply (x : FVec Ideal S768x1024 .bf16) (g : FVec Ideal S1024x1024 .bf16) (c : Fin 768) (o : Fin 1024) :
    matmul DG none x g (constant (F := Ideal) S768x1024 .f32 0x00000000#32) (ix2 c o)
      = ∑ k : Fin 1024, x (ix2 c k) * g (ix2 o k) := by
  refine (Ideal.matmul_constant_zero_apply DG none x g (ix2 c o)).trans ?_
  rw [← Equiv.sum_comp (contrEquiv1 DG 1024 rfl rfl).symm]
  refine Finset.sum_congr rfl fun k _ => ?_
  have hk := contrEquiv1_symm_val DG 1024 rfl rfl k
  have el : DG.lhsIdx (ix2 c o) ((contrEquiv1 DG 1024 rfl rfl).symm k) = ix2 c k := funext fun a => Fin.ext (by
    match a with
    | ⟨0, _⟩ => exact lhsG_0 _ _
    | ⟨1, _⟩ => exact (lhsG_1 _ _).trans hk)
  have er : DG.rhsIdx (ix2 c o) ((contrEquiv1 DG 1024 rfl rfl).symm k) = ix2 o k := funext fun a => Fin.ext (by
    match a with
    | ⟨0, _⟩ => exact rhsG_0 _ _
    | ⟨1, _⟩ => exact (rhsG_1 _ _).trans hk)
  rw [el, er]

theorem lhsD_0 (j : S768x1024.Idx) (q : DD.contr.Idx) : (DD.lhsIdx j q 0).val = (j 0).val := by
  unfold DotDims.lhsIdx
  rw [dif_neg (show ¬(0 : Fin S768x512.rank) ∈ DD.lhsBatch by decide),
    dif_pos (show (0 : Fin S768x512.rank) ∈ DD.lhsNonContracting by decide)]
  rfl
theorem lhsD_1 (j : S768x1024.Idx) (q : DD.contr.Idx) : (DD.lhsIdx j q 1).val = (q ⟨0, by decide⟩).val :=
  DD.lhsIdx_val_of_single rfl j q
theorem rhsD_0 (j : S768x1024.Idx) (q : DD.contr.Idx) : (DD.rhsIdx j q 0).val = (j 1).val := by
  unfold DotDims.rhsIdx
  rw [dif_neg (show ¬(0 : Fin S1024x512.rank) ∈ DD.rhsBatch by decide),
    dif_pos (show (0 : Fin S1024x512.rank) ∈ DD.rhsNonContracting by decide)]
  rfl
theorem rhsD_1 (j : S768x1024.Idx) (q : DD.contr.Idx) : (DD.rhsIdx j q 1).val = (q ⟨0, by decide⟩).val :=
  DD.rhsIdx_val_of_single rfl j q

/-- The down product at (c, h): row c of the hidden activations against row h of the weights. -/
theorem down_apply (a : FVec Ideal S768x512 .bf16) (d : FVec Ideal S1024x512 .bf16) (c : Fin 768) (h : Fin 1024) :
    matmul DD none a d (constant (F := Ideal) S768x1024 .f32 0x00000000#32) (ix2 c h)
      = ∑ i : Fin 512, a (ix2 c i) * d (ix2 h i) := by
  refine (Ideal.matmul_constant_zero_apply DD none a d (ix2 c h)).trans ?_
  rw [← Equiv.sum_comp (contrEquiv1 DD 512 rfl rfl).symm]
  refine Finset.sum_congr rfl fun i _ => ?_
  have hi := contrEquiv1_symm_val DD 512 rfl rfl i
  have el : DD.lhsIdx (ix2 c h) ((contrEquiv1 DD 512 rfl rfl).symm i) = ix2 c i := funext fun a => Fin.ext (by
    match a with
    | ⟨0, _⟩ => exact lhsD_0 _ _
    | ⟨1, _⟩ => exact (lhsD_1 _ _).trans hi)
  have er : DD.rhsIdx (ix2 c h) ((contrEquiv1 DD 512 rfl rfl).symm i) = ix2 h i := funext fun a => Fin.ext (by
    match a with
    | ⟨0, _⟩ => exact rhsD_0 _ _
    | ⟨1, _⟩ => exact (rhsD_1 _ _).trans hi)
  rw [el, er]

/-! ## The two halves of the first product -/

/-- Columns 0 … 511: the gate half. -/
theorem gateHalf_apply {α : Type} (p : S768x1024.Idx → α) (hs : S768x1024.Slices ![0, 0] S768x512) (c : Fin 768) (i : Fin 512) :
    extractStridedSlice S768x512 ![0, 0] p hs (ix2 c i) = p (ix2 c (⟨i.val, by omega⟩ : Fin 1024)) :=
  extractStridedSlice_apply ![0, 0] p hs (ix2 c i) (ix2 c (⟨i.val, by omega⟩ : Fin 1024)) fun a => by
    match a with
    | ⟨0, _⟩ => show c.val = 0 + c.val; omega
    | ⟨1, _⟩ => show i.val = 0 + i.val; omega

/-- Columns 512 … 1023: the up half. -/
theorem upHalf_apply {α : Type} (p : S768x1024.Idx → α) (hs : S768x1024.Slices ![0, 512] S768x512) (c : Fin 768) (i : Fin 512) :
    extractStridedSlice S768x512 ![0, 512] p hs (ix2 c i) = p (ix2 c (⟨i.val + 512, by omega⟩ : Fin 1024)) :=
  extractStridedSlice_apply ![0, 512] p hs (ix2 c i) (ix2 c (⟨i.val + 512, by omega⟩ : Fin 1024)) fun a => by
    match a with
    | ⟨0, _⟩ => show c.val = 0 + c.val; omega
    | ⟨1, _⟩ => show i.val + 512 = 512 + i.val; omega

/-- The gating between the products, elementwise: the gate half through silu, times the up half; the narrowing of
    the format is the identity on extended reals. -/
theorem gated_apply (u w : FVec Ideal S768x512 .f32) (hb : FTy.bits .bf16 < FTy.bits .f32) (j : S768x512.Idx) :
    (truncf .bf16 (mulf (mulf u (logistic u)) w) hb : FVec Ideal S768x512 .bf16) j = silu (u j) * w j := rfl

/-! ## The block's payload -/

/-- The first product over the blocks as loaded, at (c, o). -/
theorem proj_apply (x0 : FVec Ideal S1x768x1024 .bf16) (x1 : FVec Ideal S1x1024x1024 .bf16)
    (h0 : S1x768x1024.ShapeCasts S768x1024) (h1 : S1x1024x1024.ShapeCasts S1024x1024) (c : Fin 768) (o : Fin 1024) :
    matmul DG none (shapeCast S768x1024 x0 h0) (shapeCast S1024x1024 x1 h1) (constant (F := Ideal) S768x1024 .f32 0x00000000#32) (ix2 c o)
      = ∑ k : Fin 1024, x0 (ix3 (0 : Fin 1) c k) * x1 (ix3 (0 : Fin 1) o k) :=
  (gateUp_apply _ _ c o).trans (Finset.sum_congr rfl fun k _ =>
    congrArg₂ (· * ·) (dropUnit_apply x0 h0 c k) (dropUnit_apply x1 h1 o k))

/-- WHAT THE BODY STORES at (0, c, h), from the three blocks it loaded. -/
theorem payload_apply (x0 : FVec Ideal S1x768x1024 .bf16) (x1 : FVec Ideal S1x1024x1024 .bf16) (x2 : FVec Ideal S1x1024x512 .bf16)
    (c : Fin 768) (h : Fin 1024) :
    k0_pay1 (F := Ideal) x0 x1 x2 (ix3 (0 : Fin 1) c h)
      = ∑ i : Fin 512,
          (silu (∑ k : Fin 1024, x0 (ix3 (0 : Fin 1) c k) * x1 (ix3 (0 : Fin 1) (⟨i.val, by omega⟩ : Fin 1024) k))
            * (∑ k : Fin 1024, x0 (ix3 (0 : Fin 1) c k) * x1 (ix3 (0 : Fin 1) (⟨i.val + 512, by omega⟩ : Fin 1024) k)))
          * x2 (ix3 (0 : Fin 1) h i) := by
  unfold k0_pay1
  refine (addUnit_apply _ _ c h).trans ?_
  refine (down_apply _ _ c h).trans ?_
  refine Finset.sum_congr rfl fun i _ => ?_
  refine congrArg₂ (· * ·) ?_ (dropUnit_apply x2 _ h i)
  refine (gated_apply _ _ _ (ix2 c i)).trans ?_
  refine congrArg₂ (fun a b => silu a * b) ?_ ?_
  · exact (gateHalf_apply _ _ c i).trans (proj_apply x0 x1 _ _ c _)
  · exact (upHalf_apply _ _ c i).trans (proj_apply x0 x1 _ _ c _)

/-- The same against the whole arrays: when the three blocks are expert e's slices of X, G, D, the stored value at
    (0, c, h) is the grouped gated MLP's entry (e, c, h). -/
theorem payload_eq_outAt (X : SX.Idx → EReal) (G : SG.Idx → EReal) (D : SD.Idx → EReal) (e : Fin 32)
    (x0 : FVec Ideal S1x768x1024 .bf16) (x1 : FVec Ideal S1x1024x1024 .bf16) (x2 : FVec Ideal S1x1024x512 .bf16)
    (hx : ∀ (c : Fin 768) (k : Fin 1024), x0 (ix3 (0 : Fin 1) c k) = X (ix3 e c k))
    (hg : ∀ (o : Fin 1024) (k : Fin 1024), x1 (ix3 (0 : Fin 1) o k) = G (ix3 e o k))
    (hd : ∀ (h : Fin 1024) (i : Fin 512), x2 (ix3 (0 : Fin 1) h i) = D (ix3 e h i))
    (c : Fin 768) (h : Fin 1024) :
    k0_pay1 (F := Ideal) x0 x1 x2 (ix3 (0 : Fin 1) c h) = outAt X G D e c h := by
  refine (payload_apply x0 x1 x2 c h).trans ?_
  unfold Cert.MoeSpec.outAt Cert.MoeSpec.hidden Cert.MoeSpec.proj
  refine Finset.sum_congr rfl fun i _ => ?_
  rw [hd h i]
  refine congrArg (· * D (ix3 e h i)) ?_
  refine congrArg₂ (fun a b => silu a * b) ?_ ?_
  · exact Finset.sum_congr rfl fun k _ => by rw [hx c k, hg _ k]
  · exact Finset.sum_congr rfl fun k _ => by rw [hx c k, hg _ k]

end Cert.KernelIdeal.ExpertBlock

end
-- ==== Proof.KernelValue.lean ====
/-
  The output array after the region, as one function of the three operand arrays.

  The grid runs over the 32 experts. At point t every window is on block (t, 0, 0) of its array, a block being one
  expert's whole slice; so the three blocks the body loads at t are expert t's slots, gate/up weights and down weights,
  and the block it writes back is expert t's slice of the grouped gated MLP (the block's payload read at an index).
  Index (e, c, h) of the output lies in the block of point e, every point writes its block back, and so the array ends
  holding the grouped gated MLP of the operand arrays as the region found them.
-/
import proofs.«165575_j43954695308102_1_alg».proof.Proof.KernelBlock
import proofs.«165575_j43954695308102_1_alg».proof.Proof.Gen.KernelIdeal.Frame
import Idealize.ShloMosaic.Lib.Pipeline.Value
import Idealize.ShloMosaic.Lib.Tactic

noncomputable section

namespace Cert.KernelIdeal.ExpertValue

open Cert.KernelIdeal Cert.KernelIdeal.Gen Cert.KernelIdeal.ExpertBlock Cert.MoeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- The printed index maps, decided over the grid: at point t each of the four windows is on block (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The expert a grid point works on: the point itself. -/
abbrev expertOf (t : Fin cfg0.N) : Fin 32 := Fin.cast N_0 t

/-! ## Where each window's block sits in its array -/

/-- Position (0, s, k) of the slots' block at point t is position (t, s, k) of the capacity buffer. -/
theorem slots_emb (t : Fin cfg0.N) (s : Fin 768) (k : Fin 1024) :
    ((cfg0.win 0).blk t).view.emb (ix3 (0 : Fin 1) s k : S1x768x1024.Idx) = (ix3 (expertOf t) s k : SX.Idx) := by
  obtain ⟨⟨e0, e1, e2⟩, -, -, -⟩ := idx_facts t
  funext a; apply Fin.ext
  match a with
  | ⟨0, _⟩ => show win0_0.index t (0 : Fin 3) * 1 + 1 * 0 = t.val; rw [e0]; omega
  | ⟨1, _⟩ => show win0_0.index t (1 : Fin 3) * 768 + 1 * s.val = s.val; rw [e1]; omega
  | ⟨2, _⟩ => show win0_0.index t (2 : Fin 3) * 1024 + 1 * k.val = k.val; rw [e2]; omega

/-- Position (0, o, k) of the gate/up block at point t is position (t, o, k) of the gate/up weights. -/
theorem gate_emb (t : Fin cfg0.N) (o : Fin 1024) (k : Fin 1024) :
    ((cfg0.win 1).blk t).view.emb (ix3 (0 : Fin 1) o k : S1x1024x1024.Idx) = (ix3 (expertOf t) o k : SG.Idx) := by
  obtain ⟨-, ⟨e0, e1, e2⟩, -, -⟩ := idx_facts t
  funext a; apply Fin.ext
  match a with
  | ⟨0, _⟩ => show win0_1.index t (0 : Fin 3) * 1 + 1 * 0 = t.val; rw [e0]; omega
  | ⟨1, _⟩ => show win0_1.index t (1 : Fin 3) * 1024 + 1 * o.val = o.val; rw [e1]; omega
  | ⟨2, _⟩ => show win0_1.index t (2 : Fin 3) * 1024 + 1 * k.val = k.val; rw [e2]; omega

/-- Position (0, h, i) of the down block at point t is position (t, h, i) of the down weights. -/
theorem down_emb (t : Fin cfg0.N) (h : Fin 1024) (i : Fin 512) :
    ((cfg0.win 2).blk t).view.emb (ix3 (0 : Fin 1) h i : S1x1024x512.Idx) = (ix3 (expertOf t) h i : SD.Idx) := by
  obtain ⟨-, -, ⟨e0, e1, e2⟩, -⟩ := idx_facts t
  funext a; apply Fin.ext
  match a with
  | ⟨0, _⟩ => show win0_2.index t (0 : Fin 3) * 1 + 1 * 0 = t.val; rw [e0]; omega
  | ⟨1, _⟩ => show win0_2.index t (1 : Fin 3) * 1024 + 1 * h.val = h.val; rw [e1]; omega
  | ⟨2, _⟩ => show win0_2.index t (2 : Fin 3) * 512 + 1 * i.val = i.val; rw [e2]; omega

/-- Position (0, s, h) of the output block at point t is position (t, s, h) of the output array. -/
theorem out_emb (t : Fin cfg0.N) (s : Fin 768) (h : Fin 1024) :
    ((cfg0.win 3).blk t).view.emb (ix3 (0 : Fin 1) s h : S1x768x1024.Idx) = (ix3 (expertOf t) s h : SX.Idx) := by
  obtain ⟨-, -, -, ⟨e0, e1, e2⟩⟩ := idx_facts t
  funext a; apply Fin.ext
  match a with
  | ⟨0, _⟩ => show win0_3.index t (0 : Fin 3) * 1 + 1 * 0 = t.val; rw [e0]; omega
  | ⟨1, _⟩ => show win0_3.index t (1 : Fin 3) * 768 + 1 * s.val = s.val; rw [e1]; omega
  | ⟨2, _⟩ => show win0_3.index t (2 : Fin 3) * 1024 + 1 * h.val = h.val; rw [e2]; omega

/-! ## The three blocks the body loads at point t are expert t's slices -/

theorem slots_read (c : Dev nD) (t : Fin cfg0.N) (s : Fin 768) (k : Fin 1024) :
    (iblk m c 0 t : FVec Ideal S1x768x1024 .bf16) (ix3 (0 : Fin 1) s k)
      = (V m c main_v86 : SX.Idx → EReal) (ix3 (expertOf t) s k) := by
  unfold iblk
  rw [View.read_apply]
  show V m c main_v86 (((cfg0.win 0).blk t).view.emb (ix3 (0 : Fin 1) s k : S1x768x1024.Idx)) = _
  rw [slots_emb t s k]

theorem gate_read (c : Dev nD) (t : Fin cfg0.N) (o : Fin 1024) (k : Fin 1024) :
    (iblk m c 1 t : FVec Ideal S1x1024x1024 .bf16) (ix3 (0 : Fin 1) o k)
      = (V m c main_v88 : SG.Idx → EReal) (ix3 (expertOf t) o k) := by
  unfold iblk
  rw [View.read_apply]
  show V m c main_v88 (((cfg0.win 1).blk t).view.emb (ix3 (0 : Fin 1) o k : S1x1024x1024.Idx)) = _
  rw [gate_emb t o k]

theorem down_read (c : Dev nD) (t : Fin cfg0.N) (h : Fin 1024) (i : Fin 512) :
    (iblk m c 2 t : FVec Ideal S1x1024x512 .bf16) (ix3 (0 : Fin 1) h i)
      = (V m c main_v89 : SD.Idx → EReal) (ix3 (expertOf t) h i) := by
  unfold iblk
  rw [View.read_apply]
  show V m c main_v89 (((cfg0.win 2).blk t).view.emb (ix3 (0 : Fin 1) h i : S1x1024x512.Idx)) = _
  rw [down_emb t h i]

/-! ## What a point writes back -/

/-- WHAT POINT t WRITES BACK is block t of the grouped gated MLP of the operand arrays as the region found them. -/
theorem flushed_eq (c : Dev nD) (t : Fin cfg0.N) :
    (dats m 0 c).flushed 3 t = ((cfg0.win 3).blk t).view.read (Elt Ideal)
      (expertMlp (V m c main_v86) (V m c main_v88) (V m c main_v89)) := by
  show (cfg0.win 3).cut (grid0.coords t) ((dats m 0 c).after 3 t) = _
  rw [after0_3]
  unfold out0_3
  rw [View.canon_unit_zero hz]
  simp only [View.ld_unit_zero (S := S1x768x1024) hz, View.ld_unit_zero (S := S1x1024x1024) hz,
    View.ld_unit_zero (S := S1x1024x512) hz]
  refine funext fun (j : S1x768x1024.Idx) => ?_
  obtain ⟨a, s, h, rfl⟩ : ∃ (a : Fin 1) (s : Fin 768) (h : Fin 1024), j = ix3 a s h := ⟨j 0, j 1, j 2, eq_ix3 j⟩
  obtain rfl : a = 0 := Subsingleton.elim _ _
  show k0_pay1 (F := Ideal) (iblk m c 0 t) (iblk m c 1 t) (iblk m c 2 t) (ix3 (0 : Fin 1) s h)
    = expertMlp (V m c main_v86) (V m c main_v88) (V m c main_v89)
        (((cfg0.win 3).blk t).view.emb (ix3 (0 : Fin 1) s h : S1x768x1024.Idx))
  rw [out_emb t s h, expertMlp_ix3]
  exact payload_eq_outAt (V m c main_v86) (V m c main_v88) (V m c main_v89) (expertOf t)
    (iblk m c 0 t) (iblk m c 1 t) (iblk m c 2 t) (slots_read m c t) (gate_read m c t) (down_read m c t) s h

/-! ## The blocks cover the array -/

/-- An index of the output array is in point t's block iff each coordinate is in the block's range on its axis. -/
theorem mem_blk (t : Fin cfg0.N) (i : SX.Idx) :
    i ∈ ((cfg0.win 3).blk t).view.set ↔ ∀ a : Fin 3, win0_3.index t a * S1x768x1024.size a ≤ (i a).val
      ∧ (i a).val < win0_3.index t a * S1x768x1024.size a + S1x768x1024.size a := by
  show i ∈ ((View.whole main_v90).slice (win0_3.rect t)).set ↔ _
  rw [View.set_slice_whole, Rect.mem_set_unit]
  exact Iff.rfl

/-- Index (e, s, h) is in the block of point e, which is written back. -/
theorem cover (i : SX.Idx) : ∃ t : Fin cfg0.N, (cfg0.win 3).flush t = true ∧ i ∈ ((cfg0.win 3).blk t).view.set := by
  have h0 : (i 0).val < 32 := (i 0).isLt
  have h1 : (i 1).val < 768 := (i 1).isLt
  have h2 : (i 2).val < 1024 := (i 2).isLt
  obtain ⟨t, ht⟩ : ∃ t : Fin cfg0.N, t.val = (i 0).val := ⟨⟨(i 0).val, by rw [show cfg0.N = 32 from N_0]; exact h0⟩, rfl⟩
  refine ⟨t, flush0_3 t, ?_⟩
  rw [mem_blk]
  obtain ⟨-, -, -, ⟨e0, e1, e2⟩⟩ := idx_facts t
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 768 ≤ (i 1).val ∧ (i 1).val < win0_3.index t (1 : Fin 3) * 768 + 768; rw [e1]; omega
  | ⟨2, _⟩ => show win0_3.index t (2 : Fin 3) * 1024 ≤ (i 2).val ∧ (i 2).val < win0_3.index t (2 : Fin 3) * 1024 + 1024; rw [e2]; omega

/-! ## The array after the region -/

/-- After the region, the output array holds the grouped gated MLP of the three operand arrays as the region found them. -/
theorem ybuf_eq (m : (ℓ : Loc nD τ sig) → Buf (Elt Ideal) ℓ) (c : Dev nD) :
    (Gen.dats (F := Ideal) m 0 c).arrAt 3 cfg0.N
      = Cert.MoeSpec.expertMlp (Gen.V (F := Ideal) m c main_v86) (Gen.V (F := Ideal) m c main_v88) (Gen.V (F := Ideal) m c main_v89) :=
  (dats m 0 c).arrAt_eq_of_cover 3 (expertMlp (V m c main_v86) (V m c main_v88) (V m c main_v89))
    (fun t _ => flushed_eq m c t) cover

end Cert.KernelIdeal.ExpertValue

end
-- ==== Proof.BridgeHost.lean ====
import proofs.«165575_j43954695308102_1_alg».proof.Proof.Gen.KernelIdeal.Frame
import proofs.«165575_j43954695308102_1_alg».proof.Proof.RefRun
import proofs.«165575_j43954695308102_1_alg».proof.Proof.RefMid
import Idealize.ShloMosaic.Lib.Pipeline.Frame
import Idealize.ShloMosaic.PureOps.Ideal

/-!
# The host operations the two programs share, read as pure terms

After the grouped MLP both programs run the same 34 host operations (two index clamps, the gather of each token's
expert output, the routing weight's select and broadcasts, the product, the final scatter-add into the shared-expert
term): they read the MLP's output and six buffers computed before it, and nothing else. Read as a pure term of those
seven operands, each side's result buffer is the same term, the two spellings differing only in which program's
shapes and dimension records they name — records with equal fields — so from equal operands the results are equal.

The reference's stretch between (its two batched products with the gated activation between them) is read the same
way: its last buffer is one term of the three operands, and it writes none of the six buffers the tail reads.
-/

noncomputable section

namespace Cert.Bridge

open Idealize.ShloMosaic Idealize.ShloMosaic.TcCoe Idealize.SL.Sem Idealize.ShloMosaic.StableHlo

/-- Rewrites each operation's result at its own buffer to its function's value and at any other buffer to what was
    there, one occurrence at a time: it also reaches an operand that sits inside a dependent pair (the operand list of
    a concatenation), where rewriting by congruence does not. -/
macro "results_rw" : tactic =>
  `(tactic| repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))

set_option maxHeartbeats 2000000 in
/-- The operations after the grouped MLP, on both sides: from equal contents of the seven buffers they read, the
    two results are equal. -/
theorem tail_congr (W : Valuation Cert.KernelIdeal.τ Cert.KernelIdeal.sig (Elt Ideal)) (W' : Valuation Cert.ReferenceIdeal.τ Cert.ReferenceIdeal.sig (Elt Ideal))
    (hy : W (Proc.devRef .tc Cert.KernelIdeal.main_v90) = W' (Proc.devRef .tc Cert.ReferenceIdeal.main_v92))
    (h11 : W (Proc.devRef .tc Cert.KernelIdeal.main_v11) = W' (Proc.devRef .tc Cert.ReferenceIdeal.main_v11))
    (h26 : W (Proc.devRef .tc Cert.KernelIdeal.main_v26) = W' (Proc.devRef .tc Cert.ReferenceIdeal.main_v26))
    (h33 : W (Proc.devRef .tc Cert.KernelIdeal.main_v33) = W' (Proc.devRef .tc Cert.ReferenceIdeal.main_v33))
    (h59 : W (Proc.devRef .tc Cert.KernelIdeal.main_v59) = W' (Proc.devRef .tc Cert.ReferenceIdeal.main_v59))
    (h60 : W (Proc.devRef .tc Cert.KernelIdeal.main_v60) = W' (Proc.devRef .tc Cert.ReferenceIdeal.main_v60))
    (h61 : W (Proc.devRef .tc Cert.KernelIdeal.main_v61) = W' (Proc.devRef .tc Cert.ReferenceIdeal.main_v61)) :
    after (List.flatten [Cert.KernelIdeal.Gen.hostOps1, Cert.KernelIdeal.Gen.hostOps1_1, Cert.KernelIdeal.Gen.hostOps1_2]) W (Proc.devRef .tc Cert.KernelIdeal.main_v115)
      = after Cert.ReferenceIdeal.HostRun.opsTail W' (Proc.devRef .tc Cert.ReferenceIdeal.main_v117) := by
  simp only [Cert.KernelIdeal.Gen.hostOps1, Cert.KernelIdeal.Gen.hostOps1_1, Cert.KernelIdeal.Gen.hostOps1_2,
    Cert.ReferenceIdeal.HostRun.opsTail, Cert.ReferenceIdeal.HostRun.tail0, Cert.ReferenceIdeal.HostRun.tail1,
    Cert.ReferenceIdeal.HostRun.tail2, List.flatten_cons, List.flatten_nil, List.append_nil, List.cons_append, List.nil_append]
  after_results_simp
  results_rw
  rw [hy, h11, h26, h33, h59, h60, h61]
  rfl

set_option maxHeartbeats 1000000 in
/-- The reference's stretch from the capacity buffer to the expert outputs leaves, at its last buffer, the one term
    of its three operands. -/
theorem mid_value (P : Valuation Cert.ReferenceIdeal.τ Cert.ReferenceIdeal.sig (Elt Ideal)) :
    after Cert.ReferenceIdeal.HostRun.opsMid P (Proc.devRef .tc Cert.ReferenceIdeal.main_v92)
      = Cert.ReferenceIdeal.GroupedMlp.hostMlp (P (Proc.devRef .tc Cert.ReferenceIdeal.main_v85)) (P (Proc.devRef .tc Cert.ReferenceIdeal.main_v86)) (P (Proc.devRef .tc Cert.ReferenceIdeal.main_arg4)) := by
  simp only [Cert.ReferenceIdeal.HostRun.opsMid, Cert.ReferenceIdeal.HostRun.mid0, Cert.ReferenceIdeal.HostRun.mid1,
    Cert.ReferenceIdeal.HostRun.mid2, Cert.ReferenceIdeal.HostRun.mid3, List.cons_append, List.nil_append]
  after_results_simp
  rfl

set_option maxHeartbeats 1000000 in
/-- That stretch writes none of the six buffers the later operations read besides its own result. -/
theorem mid_keeps (P : Valuation Cert.ReferenceIdeal.τ Cert.ReferenceIdeal.sig (Elt Ideal)) :
    after Cert.ReferenceIdeal.HostRun.opsMid P (Proc.devRef .tc Cert.ReferenceIdeal.main_v11) = P (Proc.devRef .tc Cert.ReferenceIdeal.main_v11)
    ∧ after Cert.ReferenceIdeal.HostRun.opsMid P (Proc.devRef .tc Cert.ReferenceIdeal.main_v26) = P (Proc.devRef .tc Cert.ReferenceIdeal.main_v26)
    ∧ after Cert.ReferenceIdeal.HostRun.opsMid P (Proc.devRef .tc Cert.ReferenceIdeal.main_v33) = P (Proc.devRef .tc Cert.ReferenceIdeal.main_v33)
    ∧ after Cert.ReferenceIdeal.HostRun.opsMid P (Proc.devRef .tc Cert.ReferenceIdeal.main_v59) = P (Proc.devRef .tc Cert.ReferenceIdeal.main_v59)
    ∧ after Cert.ReferenceIdeal.HostRun.opsMid P (Proc.devRef .tc Cert.ReferenceIdeal.main_v60) = P (Proc.devRef .tc Cert.ReferenceIdeal.main_v60)
    ∧ after Cert.ReferenceIdeal.HostRun.opsMid P (Proc.devRef .tc Cert.ReferenceIdeal.main_v61) = P (Proc.devRef .tc Cert.ReferenceIdeal.main_v61) := by
  simp only [Cert.ReferenceIdeal.HostRun.opsMid, Cert.ReferenceIdeal.HostRun.mid0, Cert.ReferenceIdeal.HostRun.mid1,
    Cert.ReferenceIdeal.HostRun.mid2, Cert.ReferenceIdeal.HostRun.mid3, List.cons_append, List.nil_append]
  refine ⟨?_, ?_, ?_, ?_, ?_, ?_⟩ <;> after_results_simp

end Cert.Bridge

end
-- ==== Proof.BridgePrefixA.lean ====
/-
  Before the grouped MLP the two programs run the same host operations, in the same order, on the same arguments:
  reshapes, iotas, broadcasts, comparisons and selects, a two-operand sort, gathers, a scatter with integer addition, a
  window reduction with integer addition, a row sum, a product, and the slice of the gate/up weights. A buffer written
  by such a line of operations holds the composition of the operations' functions applied to the argument arrays; read that way, each buffer below is one closed term of the five arguments
  on each side, and the two terms are the same term: the shapes, the dimension records and the comparator are
  spelt alike in the two programs, and proofs are irrelevant. On the kernel's side two of the operands are narrowed to
  the 16-bit format on the way in, which is the identity on extended reals.
-/
import proofs.«165575_j43954695308102_1_alg».proof.Proof.Gen.KernelIdeal.Frame
import proofs.«165575_j43954695308102_1_alg».proof.Proof.RefRun
import Idealize.ShloMosaic.Lib.StableHlo.Run
import Idealize.ShloMosaic.PureOps.Ideal

noncomputable section

namespace Cert.Bridge
open Idealize.ShloMosaic Idealize.ShloMosaic.TcCoe Idealize.SL.Sem Idealize.ShloMosaic.StableHlo

/-- Narrowing the float format is the identity on extended reals. -/
private theorem truncf_bf16_id {s : Shape} (x : FVec Ideal s .f32) (h : FTy.bits .bf16 < FTy.bits .f32) :
    (truncf .bf16 x h : s.Idx → EReal) = x := rfl

set_option maxHeartbeats 8000000 in
/-- The routing buffers and the two weight operands: from arguments that agree, the kernel program's buffers when its
    region is entered hold what the reference's hold after the same stretch of its line. Both sides are read as
    terms of the arguments (each operation's result at its own buffer is its function of its operands' contents, at
    any other buffer what was there), the reference's arguments are replaced by the kernel program's, and the two
    terms coincide. -/
theorem routing_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.V (F := Ideal) m c Cert.KernelIdeal.main_v11 = after Cert.ReferenceIdeal.HostRun.opsPre (launchContents m' c) (Proc.devRef .tc Cert.ReferenceIdeal.main_v11)
    ∧ Cert.KernelIdeal.Gen.V (F := Ideal) m c Cert.KernelIdeal.main_v26 = after Cert.ReferenceIdeal.HostRun.opsPre (launchContents m' c) (Proc.devRef .tc Cert.ReferenceIdeal.main_v26)
    ∧ Cert.KernelIdeal.Gen.V (F := Ideal) m c Cert.KernelIdeal.main_v33 = after Cert.ReferenceIdeal.HostRun.opsPre (launchContents m' c) (Proc.devRef .tc Cert.ReferenceIdeal.main_v33)
    ∧ Cert.KernelIdeal.Gen.V (F := Ideal) m c Cert.KernelIdeal.main_v59 = after Cert.ReferenceIdeal.HostRun.opsPre (launchContents m' c) (Proc.devRef .tc Cert.ReferenceIdeal.main_v59)
    ∧ Cert.KernelIdeal.Gen.V (F := Ideal) m c Cert.KernelIdeal.main_v60 = after Cert.ReferenceIdeal.HostRun.opsPre (launchContents m' c) (Proc.devRef .tc Cert.ReferenceIdeal.main_v60)
    ∧ Cert.KernelIdeal.Gen.V (F := Ideal) m c Cert.KernelIdeal.main_v61 = after Cert.ReferenceIdeal.HostRun.opsPre (launchContents m' c) (Proc.devRef .tc Cert.ReferenceIdeal.main_v61)
    ∧ Cert.KernelIdeal.Gen.V (F := Ideal) m c Cert.KernelIdeal.main_v88 = after Cert.ReferenceIdeal.HostRun.opsPre (launchContents m' c) (Proc.devRef .tc Cert.ReferenceIdeal.main_v86)
    ∧ Cert.KernelIdeal.Gen.V (F := Ideal) m c Cert.KernelIdeal.main_v89 = after Cert.ReferenceIdeal.HostRun.opsPre (launchContents m' c) (Proc.devRef .tc Cert.ReferenceIdeal.main_arg4) := by
  obtain ⟨e0, e1, e2, e3, e4⟩ := hagree
  have e0' : m' (c, Proc.devRef .tc Cert.ReferenceIdeal.main_arg0) = m (c, Proc.devRef .tc Cert.KernelIdeal.main_arg0) := e0
  have e1' : m' (c, Proc.devRef .tc Cert.ReferenceIdeal.main_arg1) = m (c, Proc.devRef .tc Cert.KernelIdeal.main_arg1) := e1
  have e2' : m' (c, Proc.devRef .tc Cert.ReferenceIdeal.main_arg2) = m (c, Proc.devRef .tc Cert.KernelIdeal.main_arg2) := e2
  have e3' : m' (c, Proc.devRef .tc Cert.ReferenceIdeal.main_arg3) = m (c, Proc.devRef .tc Cert.KernelIdeal.main_arg3) := e3
  have e4' : m' (c, Proc.devRef .tc Cert.ReferenceIdeal.main_arg4) = m (c, Proc.devRef .tc Cert.KernelIdeal.main_arg4) := e4
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, Cert.KernelIdeal.Gen.hostOps0_9, Cert.KernelIdeal.Gen.hostOps0_10, Cert.KernelIdeal.Gen.hostOps0_11,
    Cert.KernelIdeal.Gen.hostOps0_12, Cert.KernelIdeal.Gen.hostOps0_13, Cert.KernelIdeal.Gen.hostOps0_14, List.flatten_cons, List.flatten_nil,
    List.append_nil, List.cons_append, List.nil_append,
    Cert.ReferenceIdeal.HostRun.opsPre, Cert.ReferenceIdeal.HostRun.pre0, Cert.ReferenceIdeal.HostRun.pre1, Cert.ReferenceIdeal.HostRun.pre2,
    Cert.ReferenceIdeal.HostRun.pre3, Cert.ReferenceIdeal.HostRun.pre4, Cert.ReferenceIdeal.HostRun.pre5, Cert.ReferenceIdeal.HostRun.pre6,
    Cert.ReferenceIdeal.HostRun.pre7, Cert.ReferenceIdeal.HostRun.pre8, Cert.ReferenceIdeal.HostRun.pre9, Cert.ReferenceIdeal.HostRun.pre10,
    Cert.ReferenceIdeal.HostRun.pre11, Cert.ReferenceIdeal.HostRun.pre12, Cert.ReferenceIdeal.HostRun.pre13, Cert.ReferenceIdeal.HostRun.pre14,
    Cert.ReferenceIdeal.HostRun.pre15, List.cons_append, List.nil_append, List.append_assoc]
  after_results_simp
  simp only [launchContents, e0', e1', e2', e3', e4', truncf_bf16_id]
  refine ⟨?_, ?_, ?_, ?_, ?_, ?_, ?_, ?_⟩ <;> first | trivial | rfl

end Cert.Bridge

end
-- ==== Proof.BridgePrefixB.lean ====
/-
  The capacity buffer. Both programs build it by the same line of host operations on the same arguments, ending in a
  gather of rows of the first argument, a select against zero, and a scatter with float addition into a zero array at
  index pairs that are the concatenation of two index columns. Read as a term of
  the arguments, the buffer is the same term on both sides. The concatenation takes its two columns inside a list of
  (shape, array) pairs whose side condition mentions the list; naming it as a function of the two columns lets the
  columns' own contents be read in the same pass. On the kernel's side the buffer is then narrowed to the 16-bit format,
  which is the identity on extended reals.
-/
import proofs.«165575_j43954695308102_1_alg».proof.Proof.Gen.KernelIdeal.Frame
import proofs.«165575_j43954695308102_1_alg».proof.Proof.RefRun
import Idealize.ShloMosaic.Lib.StableHlo.Run
import Idealize.ShloMosaic.PureOps.Ideal

noncomputable section

namespace Cert.Bridge
open Idealize.ShloMosaic Idealize.ShloMosaic.TcCoe Idealize.SL.Sem Idealize.ShloMosaic.StableHlo

/-- Narrowing the float format is the identity on extended reals. -/
private theorem truncf_bf16_id {s : Shape} (x : FVec Ideal s .f32) (h : FTy.bits .bf16 < FTy.bits .f32) :
    (truncf .bf16 x h : s.Idx → EReal) = x := rfl

/-- The concatenation of two arrays along an axis, with the two arrays as plain arguments. -/
def concat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_intro {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

set_option maxHeartbeats 8000000 in
/-- From arguments that agree, the kernel program's capacity buffer when its region is entered is the reference's
    after the same stretch of its line: both sides read as terms of the arguments, the reference's arguments replaced
    by the kernel program's, the two terms coincide. -/
theorem capacity_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.V (F := Ideal) m c Cert.KernelIdeal.main_v86 = after Cert.ReferenceIdeal.HostRun.opsPre (launchContents m' c) (Proc.devRef .tc Cert.ReferenceIdeal.main_v85) := by
  obtain ⟨e0, e1, e2, e3, e4⟩ := hagree
  have e0' : m' (c, Proc.devRef .tc Cert.ReferenceIdeal.main_arg0) = m (c, Proc.devRef .tc Cert.KernelIdeal.main_arg0) := e0
  have e1' : m' (c, Proc.devRef .tc Cert.ReferenceIdeal.main_arg1) = m (c, Proc.devRef .tc Cert.KernelIdeal.main_arg1) := e1
  have e2' : m' (c, Proc.devRef .tc Cert.ReferenceIdeal.main_arg2) = m (c, Proc.devRef .tc Cert.KernelIdeal.main_arg2) := e2
  have e3' : m' (c, Proc.devRef .tc Cert.ReferenceIdeal.main_arg3) = m (c, Proc.devRef .tc Cert.KernelIdeal.main_arg3) := e3
  have e4' : m' (c, Proc.devRef .tc Cert.ReferenceIdeal.main_arg4) = m (c, Proc.devRef .tc Cert.KernelIdeal.main_arg4) := e4
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, Cert.KernelIdeal.Gen.hostOps0_9, Cert.KernelIdeal.Gen.hostOps0_10, Cert.KernelIdeal.Gen.hostOps0_11,
    Cert.KernelIdeal.Gen.hostOps0_12, Cert.KernelIdeal.Gen.hostOps0_13, Cert.KernelIdeal.Gen.hostOps0_14, List.flatten_cons, List.flatten_nil,
    List.append_nil, List.cons_append, List.nil_append,
    Cert.ReferenceIdeal.HostRun.opsPre, Cert.ReferenceIdeal.HostRun.pre0, Cert.ReferenceIdeal.HostRun.pre1, Cert.ReferenceIdeal.HostRun.pre2,
    Cert.ReferenceIdeal.HostRun.pre3, Cert.ReferenceIdeal.HostRun.pre4, Cert.ReferenceIdeal.HostRun.pre5, Cert.ReferenceIdeal.HostRun.pre6,
    Cert.ReferenceIdeal.HostRun.pre7, Cert.ReferenceIdeal.HostRun.pre8, Cert.ReferenceIdeal.HostRun.pre9, Cert.ReferenceIdeal.HostRun.pre10,
    Cert.ReferenceIdeal.HostRun.pre11, Cert.ReferenceIdeal.HostRun.pre12, Cert.ReferenceIdeal.HostRun.pre13, Cert.ReferenceIdeal.HostRun.pre14,
    Cert.ReferenceIdeal.HostRun.pre15, List.cons_append, List.nil_append, List.append_assoc]
  simp (disch := decide) only [after_cons, after_nil,
    nullary_result', unary_result', binary_result', ternary_result', quaternary_result', reshape_result',
    nullary_result_ne', unary_result_ne', binary_result_ne', ternary_result_ne', quaternary_result_ne', reshape_result_ne',
    concat2_intro]
  simp only [launchContents, e0', e1', e2', e3', e4', truncf_bf16_id]
  all_goals rfl

end Cert.Bridge

end
-- ==== Proof.BridgePrefix.lean ====
/-
  The two programs' host operations before the grouped MLP compute the same values: the routing buffers and the two
  weight operands (one module), the capacity buffer (another), put together.
-/
import proofs.«165575_j43954695308102_1_alg».proof.Proof.BridgePrefixA
import proofs.«165575_j43954695308102_1_alg».proof.Proof.BridgePrefixB

noncomputable section

namespace Cert.Bridge
open Idealize.ShloMosaic Idealize.ShloMosaic.TcCoe Idealize.SL.Sem Idealize.ShloMosaic.StableHlo

/-- From arguments that agree, every buffer the later operations and the grouped MLP read holds the same value in
    the two programs when the grouped MLP starts. -/
theorem prefix_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.V (F := Ideal) m c Cert.KernelIdeal.main_v11 = after Cert.ReferenceIdeal.HostRun.opsPre (launchContents m' c) (Proc.devRef .tc Cert.ReferenceIdeal.main_v11)
    ∧ Cert.KernelIdeal.Gen.V (F := Ideal) m c Cert.KernelIdeal.main_v26 = after Cert.ReferenceIdeal.HostRun.opsPre (launchContents m' c) (Proc.devRef .tc Cert.ReferenceIdeal.main_v26)
    ∧ Cert.KernelIdeal.Gen.V (F := Ideal) m c Cert.KernelIdeal.main_v33 = after Cert.ReferenceIdeal.HostRun.opsPre (launchContents m' c) (Proc.devRef .tc Cert.ReferenceIdeal.main_v33)
    ∧ Cert.KernelIdeal.Gen.V (F := Ideal) m c Cert.KernelIdeal.main_v59 = after Cert.ReferenceIdeal.HostRun.opsPre (launchContents m' c) (Proc.devRef .tc Cert.ReferenceIdeal.main_v59)
    ∧ Cert.KernelIdeal.Gen.V (F := Ideal) m c Cert.KernelIdeal.main_v60 = after Cert.ReferenceIdeal.HostRun.opsPre (launchContents m' c) (Proc.devRef .tc Cert.ReferenceIdeal.main_v60)
    ∧ Cert.KernelIdeal.Gen.V (F := Ideal) m c Cert.KernelIdeal.main_v61 = after Cert.ReferenceIdeal.HostRun.opsPre (launchContents m' c) (Proc.devRef .tc Cert.ReferenceIdeal.main_v61)
    ∧ Cert.KernelIdeal.Gen.V (F := Ideal) m c Cert.KernelIdeal.main_v86 = after Cert.ReferenceIdeal.HostRun.opsPre (launchContents m' c) (Proc.devRef .tc Cert.ReferenceIdeal.main_v85)
    ∧ Cert.KernelIdeal.Gen.V (F := Ideal) m c Cert.KernelIdeal.main_v88 = after Cert.ReferenceIdeal.HostRun.opsPre (launchContents m' c) (Proc.devRef .tc Cert.ReferenceIdeal.main_v86)
    ∧ Cert.KernelIdeal.Gen.V (F := Ideal) m c Cert.KernelIdeal.main_v89 = after Cert.ReferenceIdeal.HostRun.opsPre (launchContents m' c) (Proc.devRef .tc Cert.ReferenceIdeal.main_arg4) := by
  obtain ⟨h11, h26, h33, h59, h60, h61, h88, h89⟩ := routing_agree m m' c hagree
  exact ⟨h11, h26, h33, h59, h60, h61, capacity_agree m m' c hagree, h88, h89⟩

end Cert.Bridge

end
-- ==== Proof.Assemble.lean ====
/-
  The reference's result equals the kernel program's result.

  Both programs apply the same host operations to the routing inputs (a stable argsort of the flattened expert
  indices, the per-expert counts and their exclusive prefix sums, the slot of each assignment inside its expert, the
  scatter-add that builds the capacity buffer) and the same host operations to the expert outputs (a gather of each
  assignment's slot, the routing weight, and the scatter-add back to the tokens). Between the two, one program runs
  the grouped gated MLP as a region blocked by expert, the other as a batched stretch on the host; both are
  `Cert.MoeSpec.expertMlp` of the capacity buffer, the routed experts' gate/up weights and the down weights. So:
  the buffers the shared prefix leaves agree (`Cert.Bridge.prefix_agree`), hence the two MLP outputs agree, and the shared
  suffix applied to agreeing buffers gives agreeing results (`Cert.Bridge.tail_congr`).
-/
import proofs.«165575_j43954695308102_1_alg».proof.Proof.Gen.KernelIdeal.Frame
import proofs.«165575_j43954695308102_1_alg».proof.Proof.RefRun
import proofs.«165575_j43954695308102_1_alg».proof.Proof.RefMid
import proofs.«165575_j43954695308102_1_alg».proof.Proof.Runs
import proofs.«165575_j43954695308102_1_alg».proof.Proof.KernelValue
import proofs.«165575_j43954695308102_1_alg».proof.Proof.BridgeHost
import proofs.«165575_j43954695308102_1_alg».proof.Proof.BridgePrefix
import Idealize.ShloMosaic.Lib.Pipeline.Frame
import Idealize.ShloMosaic.Lib.Pipeline.FrameSuffix

noncomputable section

namespace Cert.Assemble

open Idealize.ShloMosaic Idealize.ShloMosaic.TcCoe Idealize.SL.Sem Idealize.ShloMosaic.StableHlo

/-- From memories agreeing on the arguments, the reference's result is the kernel program's result: the operations
    after the grouped MLP are the same on both sides and read buffers on which the two programs agree, and the grouped
    MLP's output — the region's output array on one side, the host's batched stretch on the other — is the same function
    `Cert.MoeSpec.expertMlp` of operands on which they agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after (Cert.ReferenceIdeal.HostRun.ops (F := Ideal)) (launchContents m' c) (Proc.devRef .tc Cert.ReferenceIdeal.main_v117)
      = Cert.Runs.kernelResult m c := by
  obtain ⟨p11, p26, p33, p59, p60, p61, p86, p88, p89⟩ := Cert.Bridge.prefix_agree m m' c hagree
  obtain ⟨k11, k26, k33, k59, k60, k61⟩ := Cert.Bridge.mid_keeps (after (Cert.ReferenceIdeal.HostRun.opsPre (F := Ideal)) (launchContents m' c))
  show after (Cert.ReferenceIdeal.HostRun.opsPre ++ (Cert.ReferenceIdeal.HostRun.opsMid ++ Cert.ReferenceIdeal.HostRun.opsTail)) _ _ = _
  rw [StableHlo.after_append, StableHlo.after_append]
  unfold Cert.Runs.kernelResult Pipeline.afterTail₀
  refine (Cert.Bridge.tail_congr _ _ ?_ ?_ ?_ ?_ ?_ ?_ ?_).symm
  · rw [Cert.Bridge.mid_value, Cert.ReferenceIdeal.GroupedMlp.hostMlp_eq]
    refine (Pipeline.withArrays_arr Cert.KernelIdeal.spec0 Cert.KernelIdeal.Gen.launch0.win.arr_inj c _ _ 3).trans ?_
    rw [Cert.KernelIdeal.ExpertValue.ybuf_eq, p86, p88, p89]
  · exact (Pipeline.withArrays_of_ne _ c (Cert.KernelIdeal.Gen.V0 (F := Ideal) m c) _ Cert.KernelIdeal.main_v11 (by exact (by decide : ∀ w, Pipeline.arrRef Cert.KernelIdeal.spec0 w ≠ Cert.KernelIdeal.main_v11))).trans (p11.trans k11.symm)
  · exact (Pipeline.withArrays_of_ne _ c (Cert.KernelIdeal.Gen.V0 (F := Ideal) m c) _ Cert.KernelIdeal.main_v26 (by exact (by decide : ∀ w, Pipeline.arrRef Cert.KernelIdeal.spec0 w ≠ Cert.KernelIdeal.main_v26))).trans (p26.trans k26.symm)
  · exact (Pipeline.withArrays_of_ne _ c (Cert.KernelIdeal.Gen.V0 (F := Ideal) m c) _ Cert.KernelIdeal.main_v33 (by exact (by decide : ∀ w, Pipeline.arrRef Cert.KernelIdeal.spec0 w ≠ Cert.KernelIdeal.main_v33))).trans (p33.trans k33.symm)
  · exact (Pipeline.withArrays_of_ne _ c (Cert.KernelIdeal.Gen.V0 (F := Ideal) m c) _ Cert.KernelIdeal.main_v59 (by exact (by decide : ∀ w, Pipeline.arrRef Cert.KernelIdeal.spec0 w ≠ Cert.KernelIdeal.main_v59))).trans (p59.trans k59.symm)
  · exact (Pipeline.withArrays_of_ne _ c (Cert.KernelIdeal.Gen.V0 (F := Ideal) m c) _ Cert.KernelIdeal.main_v60 (by exact (by decide : ∀ w, Pipeline.arrRef Cert.KernelIdeal.spec0 w ≠ Cert.KernelIdeal.main_v60))).trans (p60.trans k60.symm)
  · exact (Pipeline.withArrays_of_ne _ c (Cert.KernelIdeal.Gen.V0 (F := Ideal) m c) _ Cert.KernelIdeal.main_v61 (by exact (by decide : ∀ w, Pipeline.arrRef Cert.KernelIdeal.spec0 w ≠ Cert.KernelIdeal.main_v61))).trans (p61.trans k61.symm)

end Cert.Assemble

end
-- ==== Proof.lean ====
/-
  The certificate: a capacity-buffer mixture-of-experts layer whose grouped gated MLP runs as one pipelined region
  (grid over the 32 routed experts, one whole [768, 1024] block of the capacity buffer per expert, two matrix products
  with the silu gate between them) is, at the ideal values, the same function of its five arguments as the reference
  that computes the grouped MLP with two batched products on the host.

  The three frames: the kernel program's and its idealization's are the generated class-A frames; the reference is a
  straight line of host operations (`Cert.Runs.reference_frame`). The ideal pass rewrote nothing, so `preserves` is
  trivial. The equivalence: the kernel program's frame run names its result, and the reference's result equals it
  (`Cert.Assemble.result_eq`): same routing bookkeeping before, same scatter-add back after, and in between the two
  spellings of `Cert.MoeSpec.expertMlp` (sums on the extended reals are commutative and associative, and
  `tpu.logistic` is `1 / (1 + exp (-x))` there), so finiteness of the inputs is never used.
-/
import proofs.«165575_j43954695308102_1_alg».proof.Defs
import proofs.«165575_j43954695308102_1_alg».proof.Proof.Gen.Kernel
import proofs.«165575_j43954695308102_1_alg».proof.Proof.Gen.Kernel.Skeleton
import proofs.«165575_j43954695308102_1_alg».proof.Proof.Gen.Kernel.Launch
import proofs.«165575_j43954695308102_1_alg».proof.Proof.Gen.Kernel.Points
import proofs.«165575_j43954695308102_1_alg».proof.Proof.Gen.Kernel.Frame
import proofs.«165575_j43954695308102_1_alg».proof.Proof.Gen.KernelIdeal
import proofs.«165575_j43954695308102_1_alg».proof.Proof.Gen.KernelIdeal.Skeleton
import proofs.«165575_j43954695308102_1_alg».proof.Proof.Gen.KernelIdeal.Launch
import proofs.«165575_j43954695308102_1_alg».proof.Proof.Gen.KernelIdeal.Points
import proofs.«165575_j43954695308102_1_alg».proof.Proof.Gen.KernelIdeal.Frame
import proofs.«165575_j43954695308102_1_alg».proof.Proof.Gen.ReferenceIdeal
import proofs.«165575_j43954695308102_1_alg».proof.Proof.Gen.Pre_finite_inputs
import proofs.«165575_j43954695308102_1_alg».proof.Proof.Runs
import proofs.«165575_j43954695308102_1_alg».proof.Proof.Assemble
import Idealize.ShloMosaic.Adequacy
import Idealize.ShloMosaic.Init

noncomputable section

namespace Cert.Proof

open Idealize.ShloMosaic Idealize.SL.Sem

/-- The printed kernel program runs and leaves its arguments unchanged (the generated class-A frame). -/
theorem frame_kernel : Cert.frame_Kernel := fun m ρ _ => Cert.Kernel.Gen.frame m ρ

/-- The same of its idealization. -/
theorem frame_kernel_ideal : Cert.frame_KernelIdeal := fun m ρ _ => Cert.KernelIdeal.Gen.frame m ρ

/-- The ideal pass rewrote no operation: nothing to preserve beyond reading the same text at the ideal values. -/
theorem preserves : Cert.preserves_Kernel_KernelIdeal := trivial

/-- From memories agreeing on the arguments both idealized programs run, leave their arguments unchanged, and end
    with equal results: the kernel program's result is named by its frame run, and the reference's fold of host
    operations equals it (`Cert.Assemble.result_eq`). -/
theorem algebraic : Cert.algebraic_KernelIdeal_ReferenceIdeal := by
  intro m ρ m' ρ' _ hagree
  refine ⟨fun c => Cert.Runs.kernelResult m c, Cert.Runs.kernel_run m ρ, ?_⟩
  exact (θ_run (Cert.ReferenceIdeal.defs (F := Ideal)) _ _).mono
    (fun _ h c => ⟨(h c).1.trans (Cert.Assemble.result_eq m m' c (hagree c)), (h c).2⟩) (Cert.Runs.reference_run m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, Cert.Runs.reference_frame, preserves, algebraic⟩

end Cert.Proof

end
